-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x26x128 : Shape := ⟨3, ![65536, 26, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x26x128 : S_.BroadcastsInDim S65536x26x128 (![] : Fin 0 → Fin S65536x26x128.rank)
  reducesTo_S65536x26x128_S_d0_1_2 : S65536x26x128.ReducesTo [0, 1, 2] S_

variable [Facts]

def fn {F : FTy → Type} [FloatOps F] (main_arg0 : FVec F S65536x128 .f32) (main_arg1 : FVec F S65536x26x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x26x128 .f32 := Host.absf main_arg1
  let main_cst_0 : FVec F S_ .f32 := constant S_ .f32 0x7F800000#32
  let main_v5 : FVec F S65536x26x128 .f32 := broadcastInDim S65536x26x128 ![] bcast_S_S65536x26x128 main_cst_0
  let main_v6 : IVec S65536x26x128 1 := cmpf .olt main_v4 main_v5
  let main_c_1 : IVec S_ 1 := constantI S_ 1 1#1
  let main_v7 : IVec S_ 1 := (fun x v => Host.reduce IntOp.andi x v reducesTo_S65536x26x128_S_d0_1_2 h_S_) main_v6 main_c_1
  let main_v8 : IVec S_ 1 := andi main_v3 main_v7
  main_v8
-- ==== Kernel.lean ====
abbrev S65536x128 : Shape := ⟨2, ![65536, 128]⟩
abbrev S65536x26x128 : Shape := ⟨3, ![65536, 26, 128]⟩
abbrev S65536x351 : Shape := ⟨2, ![65536, 351]⟩
abbrev S512x128 : Shape := ⟨2, ![512, 128]⟩
abbrev S512x26x128 : Shape := ⟨3, ![512, 26, 128]⟩
abbrev S512x351 : Shape := ⟨2, ![512, 351]⟩
abbrev S512x1x128 : Shape := ⟨3, ![512, 1, 128]⟩
abbrev S512x27x128 : Shape := ⟨3, ![512, 27, 128]⟩
abbrev S512x27x27 : Shape := ⟨3, ![512, 27, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S65536x26x128, .f32⟩
  | .hbm, ⟨2, _⟩ => ⟨S65536x351, .f32⟩
  | .local _ .vmem, ⟨0, _⟩ => ⟨S512x128, .f32⟩
  | .local _ .vmem, ⟨1, _⟩ => ⟨S512x128, .f32⟩
  | .local _ .vmem, ⟨2, _⟩ => ⟨S512x26x128, .f32⟩
  | .local _ .vmem, ⟨3, _⟩ => ⟨S512x26x128, .f32⟩
  | .local _ .vmem, ⟨4, _⟩ => ⟨S512x351, .f32⟩
  | .local _ .vmem, ⟨5, _⟩ => ⟨S512x351, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x351 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S512x26x128_S512x26x128_0_0_0 : ∀ a, (![0, 0, 0] : Fin 3 → Nat) a + S512x26x128.size a ≤ S512x26x128.size a
  h_S512x26x128 : 0 < S512x26x128.numel
  shapeCasts_S512x128_S512x1x128 : S512x128.ShapeCasts S512x1x128
  concatenates_S512x1x128_S512x26x128_S512x27x128_d1 : Shape.Concatenates [S512x1x128, S512x26x128] S512x27x128 1
  slices_S512x27x27_o0_0_1_S512x1x26 : S512x27x27.Slices ![0, 0, 1] S512x1x26
  shapeCasts_S512x1x26_S512x26 : S512x1x26.ShapeCasts S512x26
  slices_S512x27x27_o0_1_2_S512x1x25 : S512x27x27.Slices ![0, 1, 2] S512x1x25
  shapeCasts_S512x1x25_S512x25 : S512x1x25.ShapeCasts S512x25
  slices_S512x27x27_o0_2_3_S512x1x24 : S512x27x27.Slices ![0, 2, 3] S512x1x24
  shapeCasts_S512x1x24_S512x24 : S512x1x24.ShapeCasts S512x24
  slices_S512x27x27_o0_3_4_S512x1x23 : S512x27x27.Slices ![0, 3, 4] S512x1x23
  shapeCasts_S512x1x23_S512x23 : S512x1x23.ShapeCasts S512x23
  slices_S512x27x27_o0_4_5_S512x1x22 : S512x27x27.Slices ![0, 4, 5] S512x1x22
  shapeCasts_S512x1x22_S512x22 : S512x1x22.ShapeCasts S512x22
  slices_S512x27x27_o0_5_6_S512x1x21 : S512x27x27.Slices ![0, 5, 6] S512x1x21
  shapeCasts_S512x1x21_S512x21 : S512x1x21.ShapeCasts S512x21
  slices_S512x27x27_o0_6_7_S512x1x20 : S512x27x27.Slices ![0, 6, 7] S512x1x20
  shapeCasts_S512x1x20_S512x20 : S512x1x20.ShapeCasts S512x20
  slices_S512x27x27_o0_7_8_S512x1x19 : S512x27x27.Slices ![0, 7, 8] S512x1x19
  shapeCasts_S512x1x19_S512x19 : S512x1x19.ShapeCasts S512x19
  slices_S512x27x27_o0_8_9_S512x1x18 : S512x27x27.Slices ![0, 8, 9] S512x1x18
  shapeCasts_S512x1x18_S512x18 : S512x1x18.ShapeCasts S512x18
  slices_S512x27x27_o0_9_10_S512x1x17 : S512x27x27.Slices ![0, 9, 10] S512x1x17
  shapeCasts_S512x1x17_S512x17 : S512x1x17.ShapeCasts S512x17
  slices_S512x27x27_o0_10_11_S512x1x16 : S512x27x27.Slices ![0, 10, 11] S512x1x16
  shapeCasts_S512x1x16_S512x16 : S512x1x16.ShapeCasts S512x16
  slices_S512x27x27_o0_11_12_S512x1x15 : S512x27x27.Slices ![0, 11, 12] S512x1x15
  shapeCasts_S512x1x15_S512x15 : S512x1x15.ShapeCasts S512x15
  slices_S512x27x27_o0_12_13_S512x1x14 : S512x27x27.Slices ![0, 12, 13] S512x1x14
  shapeCasts_S512x1x14_S512x14 : S512x1x14.ShapeCasts S512x14
  slices_S512x27x27_o0_13_14_S512x1x13 : S512x27x27.Slices ![0, 13, 14] S512x1x13
  shapeCasts_S512x1x13_S512x13 : S512x1x13.ShapeCasts S512x13
  slices_S512x27x27_o0_14_15_S512x1x12 : S512x27x27.Slices ![0, 14, 15] S512x1x12
  shapeCasts_S512x1x12_S512x12 : S512x1x12.ShapeCasts S512x12
  slices_S512x27x27_o0_15_16_S512x1x11 : S512x27x27.Slices ![0, 15, 16] S512x1x11
  shapeCasts_S512x1x11_S512x11 : S512x1x11.ShapeCasts S512x11
  slices_S512x27x27_o0_16_17_S512x1x10 : S512x27x27.Slices ![0, 16, 17] S512x1x10
  shapeCasts_S512x1x10_S512x10 : S512x1x10.ShapeCasts S512x10
  slices_S512x27x27_o0_17_18_S512x1x9 : S512x27x27.Slices ![0, 17, 18] S512x1x9
  shapeCasts_S512x1x9_S512x9 : S512x1x9.ShapeCasts S512x9
  slices_S512x27x27_o0_18_19_S512x1x8 : S512x27x27.Slices ![0, 18, 19] S512x1x8
  shapeCasts_S512x1x8_S512x8 : S512x1x8.ShapeCasts S512x8
  slices_S512x27x27_o0_19_20_S512x1x7 : S512x27x27.Slices ![0, 19, 20] S512x1x7
  shapeCasts_S512x1x7_S512x7 : S512x1x7.ShapeCasts S512x7
  slices_S512x27x27_o0_20_21_S512x1x6 : S512x27x27.Slices ![0, 20, 21] S512x1x6
  shapeCasts_S512x1x6_S512x6 : S512x1x6.ShapeCasts S512x6
  slices_S512x27x27_o0_21_22_S512x1x5 : S512x27x27.Slices ![0, 21, 22] S512x1x5
  shapeCasts_S512x1x5_S512x5 : S512x1x5.ShapeCasts S512x5
  slices_S512x27x27_o0_22_23_S512x1x4 : S512x27x27.Slices ![0, 22, 23] S512x1x4
  shapeCasts_S512x1x4_S512x4 : S512x1x4.ShapeCasts S512x4
  slices_S512x27x27_o0_23_24_S512x1x3 : S512x27x27.Slices ![0, 23, 24] S512x1x3
  shapeCasts_S512x1x3_S512x3 : S512x1x3.ShapeCasts S512x3
  slices_S512x27x27_o0_24_25_S512x1x2 : S512x27x27.Slices ![0, 24, 25] S512x1x2
  shapeCasts_S512x1x2_S512x2 : S512x1x2.ShapeCasts S512x2
  slices_S512x27x27_o0_25_26_S512x1x1 : S512x27x27.Slices ![0, 25, 26] S512x1x1
  shapeCasts_S512x1x1_S512x1 : S512x1x1.ShapeCasts S512x1
  concatenates_S512x26_S512x25_S512x24_S512x23_S512x22_S512x21_S512x20_S512x19_S512x18_S512x17_S512x16_S512x15_S512x14_S512x13_S512x12_S512x11_S512x10_S512x9_S512x8_S512x7_S512x6_S512x5_S512x4_S512x3_S512x2_S512x1_S512x351_d1 : Shape.Concatenates [S512x26, S512x25, S512x24, S512x23, S512x22, S512x21, S512x20, S512x19, S512x18, S512x17, S512x16, S512x15, S512x14, S512x13, S512x12, S512x11, S512x10, S512x9, S512x8, S512x7, S512x6, S512x5, S512x4, S512x3, S512x2, S512x1] S512x351 1
  inb_S512x351_S512x351_0_0 : ∀ a, (![0, 0] : Fin 2 → Nat) a + S512x351.size a ≤ S512x351.size a
  h_S512x351 : 0 < S512x351.numel
  dot_S512x27x128_S512x27x128_S512x27x27_2_2_1_1_0_0_wf : DotDims.WF S512x27x128 S512x27x128 S512x27x27 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S65536x26x128.size a
  hwx0_1 : ∀ i : grid0.Coords, EltTy.bits .f32 = 32 ∨ (Rect.block (s := S65536x26x128) S512x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x351.size a ≤ S65536x351.size a
  hwx0_2 : ∀ i : grid0.Coords, EltTy.bits .f32 = 32 ∨ (Rect.block (s := S65536x351) S512x351.size (cc0_transform_2 i) (hinb0_2 i)).WholeWords (EltTy.packing .f32)

variable [Facts₀]

def dot_S512x27x128_S512x27x128_S512x27x27_2_2_1_1_0_0 : DotDims S512x27x128 S512x27x128 S512x27x27 where
  lhsContracting := [2]
  rhsContracting := [2]
  lhsNonContracting := [1]
  rhsNonContracting := [1]
  lhsBatch := [0]
  rhsBatch := [0]
  wf := dot_S512x27x128_S512x27x128_S512x27x27_2_2_1_1_0_0_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x351.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x26x128 : Shape := ⟨3, ![65536, 26, 128]⟩
abbrev S65536x1x128 : Shape := ⟨3, ![65536, 1, 128]⟩
abbrev S65536x27x128 : Shape := ⟨3, ![65536, 27, 128]⟩
abbrev S65536x27x27 : Shape := ⟨3, ![65536, 27, 27]⟩
abbrev S_ : Shape := ⟨0, ![]⟩
abbrev S27x27 : Shape := ⟨2, ![27, 27]⟩
abbrev S729 : Shape := ⟨1, ![729]⟩
abbrev S351 : Shape := ⟨1, ![351]⟩
abbrev S729x1 : Shape := ⟨2, ![729, 1]⟩
abbrev S351x1 : Shape := ⟨2, ![351, 1]⟩
abbrev S351x2 : Shape := ⟨2, ![351, 2]⟩
abbrev S65536x351 : Shape := ⟨2, ![65536, 351]⟩

abbrev nBuf : Space → Nat
  | .hbm => 140
  | .vmem => 0
  | .smem => 0
  | _ => 0

abbrev hbmTy0_0 (i : Nat) : BufTy := match i % 128 with
  | 0 => ⟨S65536x128, .f32⟩
  | 1 => ⟨S65536x26x128, .f32⟩
  | 2 => ⟨S65536x1x128, .f32⟩
  | 3 => ⟨S65536x27x128, .f32⟩
  | 4 => ⟨S65536x27x27, .f32⟩
  | 5 => ⟨S_, .f32⟩
  | 6 => ⟨S27x27, .f32⟩
  | 7 => ⟨S27x27, .i32⟩
  | 8 => ⟨S_, .i32⟩
  | 9 => ⟨S27x27, .i32⟩
  | 10 => ⟨S27x27, .i32⟩
  | 11 => ⟨S27x27, .i32⟩
  | 12 => ⟨S27x27, .i1⟩
  | 13 => ⟨S_, .f32⟩
  | 14 => ⟨S27x27, .f32⟩
  | 15 => ⟨S27x27, .f32⟩
  | 16 => ⟨S_, .f32⟩
  | 17 => ⟨S27x27, .f32⟩
  | 18 => ⟨S27x27, .i1⟩
  | 19 => ⟨S729, .i1⟩
  | 20 => ⟨S729, .i32⟩
  | 21 => ⟨S_, .i32⟩
  | 22 => ⟨S_, .i32⟩
  | 23 => ⟨S729, .i32⟩
  | 24 => ⟨S_, .i32⟩
  | 25 => ⟨S351, .i32⟩
  | 26 => ⟨S_, .i32⟩
  | 27 => ⟨S_, .i32⟩
  | 28 => ⟨S729, .i32⟩
  | 29 => ⟨S729, .i32⟩
  | 30 => ⟨S_, .i32⟩
  | 31 => ⟨S729, .i32⟩
  | 32 => ⟨S729, .i1⟩
  | 33 => ⟨S_, .i32⟩
  | 34 => ⟨S729, .i32⟩
  | 35 => ⟨S729, .i32⟩
  | 36 => ⟨S729, .i32⟩
  | 37 => ⟨S729x1, .i32⟩
  | 38 => ⟨S_, .i32⟩
  | 39 => ⟨S729, .i32⟩
  | 40 => ⟨S351, .i32⟩
  | 41 => ⟨S_, .i32⟩
  | 42 => ⟨S_, .i32⟩
  | 43 => ⟨S351, .i32⟩
  | 44 => ⟨S_, .i32⟩
  | 45 => ⟨S351, .i32⟩
  | 46 => ⟨S351, .i32⟩
  | 47 => ⟨S351, .i32⟩
  | 48 => ⟨S_, .i32⟩
  | 49 => ⟨S351, .i32⟩
  | 50 => ⟨S351, .i1⟩
  | 51 => ⟨S351, .i32⟩
  | 52 => ⟨S351, .i32⟩
  | 53 => ⟨S_, .i32⟩
  | 54 => ⟨S351, .i32⟩
  | 55 => ⟨S351, .i1⟩
  | 56 => ⟨S351, .i1⟩
  | 57 => ⟨S_, .i32⟩
  | 58 => ⟨S351, .i32⟩
  | 59 => ⟨S351, .i32⟩
  | 60 => ⟨S351, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S351, .i32⟩
  | 68 => ⟨S351, .i32⟩
  | 69 => ⟨S_, .i32⟩
  | 70 => ⟨S351, .i32⟩
  | 71 => ⟨S351, .i1⟩
  | 72 => ⟨S_, .i32⟩
  | 73 => ⟨S351, .i32⟩
  | 74 => ⟨S351, .i1⟩
  | 75 => ⟨S_, .i32⟩
  | 76 => ⟨S_, .i1⟩
  | 77 => ⟨S351, .i1⟩
  | 78 => ⟨S351, .i1⟩
  | 79 => ⟨S351, .i1⟩
  | 80 => ⟨S351, .i32⟩
  | 81 => ⟨S351, .i32⟩
  | 82 => ⟨S351, .i32⟩
  | 83 => ⟨S_, .i32⟩
  | 84 => ⟨S351, .i32⟩
  | 85 => ⟨S351, .i32⟩
  | 86 => ⟨S351, .i32⟩
  | 87 => ⟨S_, .i32⟩
  | 88 => ⟨S351, .i32⟩
  | 89 => ⟨S351, .i1⟩
  | 90 => ⟨S351, .i32⟩
  | 91 => ⟨S351, .i32⟩
  | 92 => ⟨S_, .i32⟩
  | 93 => ⟨S351, .i32⟩
  | 94 => ⟨S351, .i1⟩
  | 95 => ⟨S351, .i1⟩
  | 96 => ⟨S_, .i32⟩
  | 97 => ⟨S351, .i32⟩
  | 98 => ⟨S351, .i32⟩
  | 99 => ⟨S351, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S351, .i32⟩
  | 107 => ⟨S351, .i32⟩
  | 108 => ⟨S_, .i32⟩
  | 109 => ⟨S351, .i32⟩
  | 110 => ⟨S351, .i1⟩
  | 111 => ⟨S_, .i32⟩
  | 112 => ⟨S351, .i32⟩
  | 113 => ⟨S351, .i1⟩
  | 114 => ⟨S_, .i32⟩
  | 115 => ⟨S_, .i1⟩
  | 116 => ⟨S351, .i1⟩
  | 117 => ⟨S351, .i1⟩
  | 118 => ⟨S351, .i1⟩
  | 119 => ⟨S351, .i32⟩
  | 120 => ⟨S351, .i32⟩
  | 121 => ⟨S351, .i32⟩
  | 122 => ⟨S_, .i32⟩
  | 123 => ⟨S351, .i32⟩
  | 124 => ⟨S351, .i1⟩
  | 125 => ⟨S_, .i32⟩
  | 126 => ⟨S351, .i32⟩
  | 127 => ⟨S351, .i32⟩
  | _ => ⟨S65536x128, .f32⟩

abbrev hbmTy0_1 (i : Nat) : BufTy := match i % 128 with
  | 0 => ⟨S351, .i32⟩
  | 1 => ⟨S_, .i32⟩
  | 2 => ⟨S351, .i32⟩
  | 3 => ⟨S351, .i1⟩
  | 4 => ⟨S_, .i32⟩
  | 5 => ⟨S351, .i32⟩
  | 6 => ⟨S351, .i32⟩
  | 7 => ⟨S351, .i32⟩
  | 8 => ⟨S351x1, .i32⟩
  | 9 => ⟨S351x1, .i32⟩
  | 10 => ⟨S351x2, .i32⟩
  | 11 => ⟨S65536x351, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_call3_call0_c : Ref sig .tc := ⟨.hbm, 41, rfl⟩
abbrev main_call3_call0_v0 : Ref sig .tc := ⟨.hbm, 42, rfl⟩
abbrev main_v18 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v19 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v20 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v21 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v22 : Ref sig .tc := ⟨.hbm, 121, rfl⟩
abbrev main_c_9 : Ref sig .tc := ⟨.hbm, 122, rfl⟩
abbrev main_v23 : Ref sig .tc := ⟨.hbm, 123, rfl⟩
abbrev main_v24 : Ref sig .tc := ⟨.hbm, 124, rfl⟩
abbrev main_c_10 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩

abbrev nD : Nat := 1
abbrev τ : Topo := Topo.v7x

variable {F : FTy → Type} [FloatOps F]

class Facts₀ : Prop where
  bcast_S65536x128_S65536x1x128_0_2 : S65536x128.BroadcastsInDim S65536x1x128 (![0, 2] : Fin 2 → Fin S65536x1x128.rank)
  concatenates_S65536x1x128_S65536x26x128_S65536x27x128_d1 : Shape.Concatenates [S65536x1x128, S65536x26x128] S65536x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S351 : S_.BroadcastsInDim S351 (![] : Fin 0 → Fin S351.rank)
  bcast_S_S729 : S_.BroadcastsInDim S729 (![] : Fin 0 → Fin S729.rank)
  bcast_S729_S729x1_0 : S729.BroadcastsInDim S729x1 (![0] : Fin 1 → Fin S729x1.rank)
  reduceWindows_S351_S351_w351s1p350_0 : S351.ReduceWindows (![351] : Fin 1 → Nat) ![1] ![350] ![0] S351
  bcast_S351_S351x1_0 : S351.BroadcastsInDim S351x1 (![0] : Fin 1 → Fin S351x1.rank)
  concatenates_S351x1_S351x1_S351x2_d1 : Shape.Concatenates [S351x1, S351x1] S351x2 1
  dot_S65536x27x128_S65536x27x128_S65536x27x27_2_2_1_1_0_0_wf : DotDims.WF S65536x27x128 S65536x27x128 S65536x27x27 [2] [2] [1] [1] [0] [0]
  scatter_S351_S729x1_S729_n_0_0_1_wf : ScatterDims.WF S351 S729x1 S729 [] [0] [0] 1
  gather_S65536x27x27_S351x2_S65536x351_0_12_n_n_12_1_6553611_wf : GatherDims.WF S65536x27x27 S351x2 S65536x351 [0] [1, 2] [] [1, 2] [] 1 ![65536, 1, 1]

variable [Facts₀]

def dot_S65536x27x128_S65536x27x128_S65536x27x27_2_2_1_1_0_0 : DotDims S65536x27x128 S65536x27x128 S65536x27x27 where
  lhsContracting := [2]
  rhsContracting := [2]
  lhsNonContracting := [1]
  rhsNonContracting := [1]
  lhsBatch := [0]
  rhsBatch := [0]
  wf := dot_S65536x27x128_S65536x27x128_S65536x27x27_2_2_1_1_0_0_wf
def scatter_S351_S729x1_S729_n_0_0_1 : ScatterDims S351 S729x1 S729 where
  updateWindowDims := []
  insertedWindowDims := [0]
  scatterDimsToOperandDims := [0]
  indexVectorDim := 1
  wf := scatter_S351_S729x1_S729_n_0_0_1_wf
def gather_S65536x27x27_S351x2_S65536x351_0_12_n_n_12_1_6553611 : GatherDims S65536x27x27 S351x2 S65536x351 where
  offsetDims := [0]
  collapsedSliceDims := [1, 2]
  operandBatchingDims := []
  startIndicesBatchingDims := []
  startIndexMap := [1, 2]
  indexVectorDim := 1
  sliceSizes := ![65536, 1, 1]
  wf := gather_S65536x27x27_S351x2_S65536x351_0_12_n_n_12_1_6553611_wf

class Facts : Prop extends Facts₀ where

variable [Facts]
-- ==== Proof.Spec.lean ====
/-
  The mathematics both programs compute, stated once, with no program imported.

  Row `b` of the batch has 27 feature vectors of 128 lanes: feature 0 is row `b` of the dense array, feature
  `f ≥ 1` is sparse feature `f - 1` of row `b`.  The Gram entry of two features is the sum over the lanes of
  the products of their entries.  The result array holds, for every batch row, the 351 Gram entries of the
  pairs `(i, j)` with `i < j < 27`, laid out row by row of the strict upper triangle: first the 26 pairs
  `(0, 1) … (0, 26)`, then the 25 pairs `(1, 2) … (1, 26)`, and so on.  Column `e` of the result is therefore
  the pair `(pairRow e, pairCol e)`, where `colsBefore i` columns precede the block of row `i`.
-/
import Idealize.ShloMosaic.Lib.ValueIdx
import Idealize.ShloMosaic.PureOps.Ideal

noncomputable section

open scoped BigOperators

namespace Cert.Spec

open Idealize.ShloMosaic Idealize.ShloMosaic.ValueIdx

/-- The dense array's shape, the sparse array's, and the result's. -/
abbrev SX : Shape := ⟨2, ![65536, 128]⟩
abbrev SY : Shape := ⟨3, ![65536, 26, 128]⟩
abbrev SO : Shape := ⟨2, ![65536, 351]⟩

/-- Lane `d` of feature `f` of batch row `b`: the dense row for `f = 0`, sparse feature `f - 1` otherwise. -/
def comb (x : SX.Idx → EReal) (y : SY.Idx → EReal) (b : Fin 65536) (f : Fin 27) (d : Fin 128) : EReal :=
  if h : f.val = 0 then x (ix2 b d) else y (ix3 b (⟨f.val - 1, by have := f.isLt; omega⟩ : Fin 26) d)

/-- The Gram entry of features `f` and `g` of batch row `b`. -/
def gram (x : SX.Idx → EReal) (y : SY.Idx → EReal) (b : Fin 65536) (f g : Fin 27) : EReal :=
  ∑ d : Fin 128, comb x y b f d * comb x y b g d

/-- How many columns of the result precede the block of triangle row `i`: `26 + 25 + … + (27 - i)`. -/
def colsBefore (i : Nat) : Nat := 26 * i - i * (i - 1) / 2

/-- The triangle row of result column `e`: the number of rows `1 … 26` whose block starts at or before `e`. -/
def pairRow (e : Nat) : Nat := ((List.range 26).filter fun i => colsBefore (i + 1) ≤ e).length

/-- The triangle column of result column `e`. -/
def pairCol (e : Nat) : Nat := pairRow e + 1 + (e - colsBefore (pairRow e))

/-- Every result column is a pair `i < j < 27`, and it sits at place `j - i - 1` of row `i`'s block. -/
theorem pair_facts : ∀ e : Fin 351, pairRow e.val < pairCol e.val ∧ pairCol e.val < 27
    ∧ colsBefore (pairRow e.val) + (pairCol e.val - pairRow e.val - 1) = e.val := by decide

theorem pairRow_lt (e : Fin 351) : pairRow e.val < 27 := by have := pair_facts e; omega
theorem pairCol_lt (e : Fin 351) : pairCol e.val < 27 := (pair_facts e).2.1

/-- Conversely the pair `(i, j)`, `i < j < 27`, is column `colsBefore i + (j - i - 1)`. -/
theorem pair_of_place : ∀ i : Fin 26, ∀ k : Fin 26, k.val < 26 - i.val →
    colsBefore i.val + k.val < 351 ∧ pairRow (colsBefore i.val + k.val) = i.val
      ∧ pairCol (colsBefore i.val + k.val) = i.val + 1 + k.val := by decide

/-- The triangle row and column of a result column, as features. -/
def rowF (e : Fin 351) : Fin 27 := ⟨pairRow e.val, pairRow_lt e⟩
def colF (e : Fin 351) : Fin 27 := ⟨pairCol e.val, pairCol_lt e⟩

/-- The result array as one function of the two argument arrays. -/
def G (x : SX.Idx → EReal) (y : SY.Idx → EReal) : SO.Idx → EReal :=
  fun j => gram x y (j 0) (rowF (j 1)) (colF (j 1))

theorem G_apply (x : SX.Idx → EReal) (y : SY.Idx → EReal) (b : Fin 65536) (e : Fin 351) :
    G x y (ix2 b e) = gram x y b (rowF e) (colF e) := rfl

end Cert.Spec

end
-- ==== Proof.GramBlock.lean ====
/-
  The Gram matrix of one block.

  A block has 512 batch rows.  Row `r` carries 27 feature vectors of 128 lanes: feature 0 is row `r` of the
  dense block and feature `f ≥ 1` is sparse feature `f - 1` of row `r` (the body puts the dense row, given a
  unit feature axis, in front of the 26 sparse features; narrowing to the shorter float format changes no
  value on the extended reals).  The body's batched product of this array with itself, contracting the lanes,
  into a zero accumulator is, at batch row `r` and entry `(f, g)`, the sum over the lanes of the products of
  the two features' entries.
-/
import proofs.«111080_j790273983046_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.GramBlock

open Cert.KernelIdeal Cert.KernelIdeal.Gen Idealize.ShloMosaic Idealize.ShloMosaic.ValueIdx

/-- Lane `d` of feature `f` of row `r` of a block: the dense row for `f = 0`, sparse feature `f - 1` otherwise. -/
def comb (x0 : FVec Ideal S512x128 .f32) (x1 : FVec Ideal S512x26x128 .f32) (r : Fin 512) (f : Fin 27) (d : Fin 128) :
    EReal :=
  if h : f.val = 0 then x0 (ix2 r d) else x1 (ix3 r (⟨f.val - 1, by have := f.isLt; omega⟩ : Fin 26) d)

/-- The array the body multiplies — the dense block with a unit feature axis, then the sparse block, along the
    feature axis, both narrowed — read at row `r`, feature `f`, lane `d`. -/
theorem combined_apply (x0 : FVec Ideal S512x128 .f32) (x1 : FVec Ideal S512x26x128 .f32)
    (hb : FTy.bits .bf16 < FTy.bits .f32) (hsc : S512x128.ShapeCasts S512x1x128)
    (hc : Shape.Concatenates [S512x1x128, S512x26x128] S512x27x128 1)
    (r : Fin 512) (f : Fin 27) (d : Fin 128) :
    concatenate S512x27x128 1 [⟨S512x1x128, shapeCast S512x1x128 (truncf .bf16 x0 hb) hsc⟩,
      ⟨S512x26x128, truncf .bf16 x1 hb⟩] hc (ix3 r f d) = comb x0 x1 r f d := by
  unfold comb
  by_cases h0 : f.val = 0
  · rw [dif_pos h0]
    refine (concatenate_pair_apply_left _ _ _ hc (ix3 r f d) rfl (ix3 r (0 : Fin 1) d) (fun b => match b with
      | ⟨0, _⟩ => rfl
      | ⟨1, _⟩ => by show 0 = f.val; omega
      | ⟨2, _⟩ => rfl)).trans ?_
    refine (shapeCast_apply _ hsc (ix3 r (0 : Fin 1) d) (ix2 r d) ?_).trans (truncf_apply x0 hb _)
    rw [Shape.rowMajor_val_two, Shape.rowMajor_val_three]
    show r.val * 128 + d.val = (r.val * 1 + 0) * 128 + d.val
    omega
  · rw [dif_neg h0]
    refine (concatenate_pair_apply_right _ _ _ hc (ix3 r f d) rfl rfl
      (ix3 r (⟨f.val - 1, by have := f.isLt; omega⟩ : Fin 26) d)
      (fun b hb => match b, hb with
        | ⟨0, _⟩, _ => rfl
        | ⟨1, _⟩, hb => absurd rfl hb
        | ⟨2, _⟩, _ => rfl)
      (by show f.val - 1 + 1 = f.val; omega)).trans (truncf_apply x1 hb _)

/-- The Gram matrix the body forms, at batch row `r` and entry `(f, g)`: the sum over the 128 lanes of the
    products of the two features' entries. -/
theorem gram_apply (x0 : FVec Ideal S512x128 .f32) (x1 : FVec Ideal S512x26x128 .f32) (r : Fin 512) (f g : Fin 27) :
    k0_pay2 (F := Ideal) x0 x1 (ix3 r f g) = ∑ d : Fin 128, comb x0 x1 r f d * comb x0 x1 r g d := by
  unfold k0_pay2
  try dsimp only
  refine (Ideal.matmul_constant_zero_apply dot_S512x27x128_S512x27x128_S512x27x27_2_2_1_1_0_0 none _ _ (ix3 r f g)).trans ?_
  rw [← Equiv.sum_comp (contrEquiv1 dot_S512x27x128_S512x27x128_S512x27x27_2_2_1_1_0_0 128 rfl rfl).symm]
  refine Finset.sum_congr rfl fun d _ => ?_
  have c3 := contrEquiv1_symm_val dot_S512x27x128_S512x27x128_S512x27x27_2_2_1_1_0_0 128 rfl rfl d
  have l3 : (dot_S512x27x128_S512x27x128_S512x27x27_2_2_1_1_0_0).lhsIdx (ix3 r f g) ((contrEquiv1 _ 128 rfl rfl).symm d) = ix3 r f d := by
    funext ax; apply Fin.ext
    match ax with
    | ⟨0, _⟩ => simp [DotDims.lhsIdx, dot_S512x27x128_S512x27x128_S512x27x27_2_2_1_1_0_0] <;> rfl
    | ⟨1, _⟩ => simp [DotDims.lhsIdx, dot_S512x27x128_S512x27x128_S512x27x27_2_2_1_1_0_0] <;> rfl
    | ⟨2, _⟩ => simp [DotDims.lhsIdx, dot_S512x27x128_S512x27x128_S512x27x27_2_2_1_1_0_0] <;> exact c3
  have r3 : (dot_S512x27x128_S512x27x128_S512x27x27_2_2_1_1_0_0).rhsIdx (ix3 r f g) ((contrEquiv1 _ 128 rfl rfl).symm d) = ix3 r g d := by
    funext ax; apply Fin.ext
    match ax with
    | ⟨0, _⟩ => simp [DotDims.rhsIdx, dot_S512x27x128_S512x27x128_S512x27x27_2_2_1_1_0_0] <;> rfl
    | ⟨1, _⟩ => simp [DotDims.rhsIdx, dot_S512x27x128_S512x27x128_S512x27x27_2_2_1_1_0_0] <;> rfl
    | ⟨2, _⟩ => simp [DotDims.rhsIdx, dot_S512x27x128_S512x27x128_S512x27x27_2_2_1_1_0_0] <;> exact c3
  rw [l3, r3, combined_apply, combined_apply]

end Cert.KernelIdeal.GramBlock

end
-- ==== Proof.TrianglePieces.lean ====
/-
  The strict upper triangle of a batch of 27 × 27 matrices, laid out row by row.

  For a batch of matrices `V` (row `r` of the batch, matrix entry `(f, g)`), the segment of matrix row `p` to the
  right of the diagonal has the `26 - p` entries `(p, p + 1), …, (p, 26)`.  Laying the 26 segments
  `p = 0, …, 25` side by side gives, for every batch row, 351 columns; `colsBefore p` columns precede the
  segment of row `p`, so column `e` is the entry `(pairRow e, pairCol e)` of the matrix.  This module reads one
  segment at an index, then the side-by-side arrangement at an index, and applies both to the value the
  kernel's body stores.
-/
import proofs.«111080_j790273983046_2_alg».proof.Proof.Gen.KernelIdeal.Skeleton
import proofs.«111080_j790273983046_2_alg».proof.Proof.Spec
import Idealize.ShloMosaic.Lib.Pipeline.Value
import Idealize.ShloMosaic.Lib.ValueIdx

noncomputable section

namespace Cert.KernelIdeal.Triangle

open Cert.KernelIdeal Cert.KernelIdeal.Gen Idealize.ShloMosaic Idealize.ShloMosaic.ValueIdx
open Cert.Spec (pairRow pairCol colsBefore rowF colF)

variable {α : Type}

/-- A segment of one matrix row: the slice of `n` entries of row `o1` starting at column `o2`, with its unit
    axis dropped, read at batch row `r` and place `k`, is the matrix entry `(o1, o2 + k)` of batch row `r`. -/
theorem rowSegment_apply {n : Nat} (o1 o2 : Nat) (V : S512x27x27.Idx → α)
    (hs : S512x27x27.Slices ![0, o1, o2] ⟨3, ![512, 1, n]⟩)
    (hc : (⟨3, ![512, 1, n]⟩ : Shape).ShapeCasts ⟨2, ![512, n]⟩)
    (r : Fin 512) (k : Fin n) (f g : Fin 27) (hf : f.val = o1) (hg : g.val = o2 + k.val) :
    shapeCast ⟨2, ![512, n]⟩ (extractStridedSlice ⟨3, ![512, 1, n]⟩ ![0, o1, o2] V hs) hc (ix2 r k)
      = V (ix3 r f g) := by
  refine (shapeCast_apply _ hc (ix2 r k) (ix3 r (0 : Fin 1) k) ?_).trans ?_
  · rw [Shape.rowMajor_val_three, Shape.rowMajor_val_two]
    show (r.val * 1 + 0) * n + k.val = r.val * n + k.val
    simp
  · exact extractStridedSlice_apply ![0, o1, o2] V hs (ix3 r (0 : Fin 1) k) (ix3 r f g) (fun a => match a with
      | ⟨0, _⟩ => by show r.val = 0 + r.val; omega
      | ⟨1, _⟩ => by show f.val = o1 + 0; omega
      | ⟨2, _⟩ => hg)

/-- Arrays of 512 rows laid side by side along the columns: column `e` of the result, when `pre` columns precede
    piece `p` and `e = pre + k` with `k` a column of piece `p`, is column `k` of piece `p`, in the same row. -/
theorem columns_apply {N : Nat} (xs : List ((s : Shape) × (s.Idx → α)))
    (h : Shape.Concatenates (xs.map (·.1)) ⟨2, ![512, N]⟩ 1) (r : Fin 512) (e : Fin N)
    (p : Nat) (hp : p < xs.length) (n : Nat) (x : (⟨2, ![512, n]⟩ : Shape).Idx → α)
    (hx : xs[p] = ⟨⟨2, ![512, n]⟩, x⟩) (pre : Nat)
    (hpre : (((xs.take p).map (·.1)).map fun s : Shape =>
      if h : s.rank = 2 then s.size ((1 : Fin 2).cast h.symm) else 0).sum = pre)
    (k : Fin n) (hk : pre + k.val = e.val) :
    concatenate ⟨2, ![512, N]⟩ 1 xs h (ix2 r e) = x (ix2 r k) :=
  concatenate_apply_piece (1 : Fin 2) xs h (ix2 r e) p hp ⟨2, ![512, n]⟩ x hx rfl pre hpre (ix2 r k)
    (fun b hb => match b, hb with
      | ⟨0, _⟩, _ => rfl
      | ⟨1, _⟩, hb => absurd rfl hb)
    hk

/-- The shapes of the 26 row segments, in order. -/
def segmentShapes : List Shape := [S512x26, S512x25, S512x24, S512x23, S512x22, S512x21, S512x20, S512x19, S512x18, S512x17, S512x16, S512x15, S512x14, S512x13, S512x12, S512x11, S512x10, S512x9, S512x8, S512x7, S512x6, S512x5, S512x4, S512x3, S512x2, S512x1]

/-- The columns that precede the segment of row `p` are those of the segments before it: `26 + 25 + … + (27 - p)`. -/
theorem segment_cols_before : ∀ p : Fin 27, ((segmentShapes.take p.val).map fun s : Shape =>
    if h : s.rank = 2 then s.size ((1 : Fin 2).cast h.symm) else 0).sum = colsBefore p.val := by decide +kernel

/-- The 351 columns of the side-by-side arrangement: if piece `p` of the list is the segment of matrix row `p`
    (its `26 - p` entries right of the diagonal) and `colsBefore p` columns precede it, then a column `e` that
    falls in that piece (`pairRow e = p`) is the matrix entry `(pairRow e, pairCol e)`. -/
theorem triangle_apply (xs : List ((s : Shape) × (s.Idx → α)))
    (h : Shape.Concatenates (xs.map (·.1)) S512x351 1) (V : S512x27x27.Idx → α) (r : Fin 512) (e : Fin 351)
    (hshapes : xs.map (·.1) = segmentShapes)
    (p : Nat) (hrow : pairRow e.val = p) (hp : p < xs.length) (n : Nat) (x : (⟨2, ![512, n]⟩ : Shape).Idx → α)
    (hx : xs[p] = ⟨⟨2, ![512, n]⟩, x⟩) (hn : p + n = 26)
    (hval : ∀ (k : Fin n) (f g : Fin 27), f.val = p → g.val = p + 1 + k.val → x (ix2 r k) = V (ix3 r f g)) :
    concatenate S512x351 1 xs h (ix2 r e) = V (ix3 r (rowF e) (colF e)) := by
  obtain ⟨h1, h2, h3⟩ := Cert.Spec.pair_facts e
  rw [hrow] at h1 h3
  have hpre : (((xs.take p).map (·.1)).map fun s : Shape =>
      if h : s.rank = 2 then s.size ((1 : Fin 2).cast h.symm) else 0).sum = colsBefore p := by
    rw [List.map_take, hshapes]
    exact segment_cols_before ⟨p, by omega⟩
  have hk : pairCol e.val - p - 1 < n := by omega
  refine (columns_apply xs h r e p hp n x hx _ hpre ⟨pairCol e.val - p - 1, hk⟩ h3).trans ?_
  exact hval _ (rowF e) (colF e) hrow (by show pairCol e.val = p + 1 + (pairCol e.val - p - 1); omega)

/-- What the kernel's body stores, read at row `r` and column `e` of its block: the Gram matrix the body forms,
    at batch row `r` and entry `(pairRow e, pairCol e)`.  The stored value is the 26 row segments of the Gram
    matrix laid side by side; the column's segment is found by its triangle row. -/
theorem payload_apply (x0 : FVec Ideal S512x128 .f32) (x1 : FVec Ideal S512x26x128 .f32) (r : Fin 512) (e : Fin 351) :
    k0_pay1 (F := Ideal) (k0_pay2 (F := Ideal) x0 x1) (k0_pay3 (F := Ideal) x0 x1) (k0_pay4 (F := Ideal) x0 x1) (k0_pay5 (F := Ideal) x0 x1) (k0_pay6 (F := Ideal) x0 x1) (k0_pay7 (F := Ideal) x0 x1) (k0_pay8 (F := Ideal) x0 x1) (k0_pay9 (F := Ideal) x0 x1) (k0_pay10 (F := Ideal) x0 x1) (k0_pay11 (F := Ideal) x0 x1) (k0_pay12 (F := Ideal) x0 x1) (k0_pay13 (F := Ideal) x0 x1) (k0_pay14 (F := Ideal) x0 x1) (k0_pay15 (F := Ideal) x0 x1) (k0_pay16 (F := Ideal) x0 x1) (k0_pay17 (F := Ideal) x0 x1) (k0_pay18 (F := Ideal) x0 x1) (k0_pay19 (F := Ideal) x0 x1) (k0_pay20 (F := Ideal) x0 x1) (k0_pay21 (F := Ideal) x0 x1) (k0_pay22 (F := Ideal) x0 x1) (k0_pay23 (F := Ideal) x0 x1) (k0_pay24 (F := Ideal) x0 x1) (k0_pay25 (F := Ideal) x0 x1) (ix2 r e)
      = k0_pay2 (F := Ideal) x0 x1 (ix3 r (rowF e) (colF e)) := by
  unfold k0_pay1 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25
  generalize k0_pay2 (F := Ideal) x0 x1 = V
  try dsimp only
  obtain ⟨p, hrow⟩ : ∃ p, pairRow e.val = p := ⟨_, rfl⟩
  have hp : p < 26 := by have := Cert.Spec.pair_facts e; omega
  interval_cases p <;>
    exact triangle_apply _ _ V r e rfl _ hrow (by simp) _ _ rfl (by decide)
      (fun k f g hf hg => rowSegment_apply _ _ V _ _ r k f g hf hg)

end Cert.KernelIdeal.Triangle

end
-- ==== Proof.KernelValue.lean ====
/-
  The kernel's result array.

  The kernel runs over 128 grid points; point `t` reads rows `512 t … 512 t + 511` of the dense and of the sparse
  array, forms for each of those batch rows the Gram matrix of its 27 feature vectors, and stores the 351
  entries above the diagonal, row by row, into rows `512 t … 512 t + 511` of the result.  So what point `t`
  writes back is block `t` of the one function `Cert.Spec.G` of the two argument arrays; the 128 blocks cover
  the result (the block that holds row `b` is the one of point `b / 512`), hence the result array ends holding
  `Cert.Spec.G` of the arguments.
-/
import proofs.«111080_j790273983046_2_alg».proof.Proof.Gen.KernelIdeal.Value
import proofs.«111080_j790273983046_2_alg».proof.Proof.Spec
import proofs.«111080_j790273983046_2_alg».proof.Proof.GramBlock
import proofs.«111080_j790273983046_2_alg».proof.Proof.TrianglePieces
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (rowF colF)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the result's block, at row `r` and column `e`: the Gram entry of the pair of column
    `e`, over the two loaded blocks. -/
theorem block_apply (x0 : FVec Ideal S512x128 .f32) (x1 : FVec Ideal S512x26x128 .f32) (r : Fin 512) (e : Fin 351) :
    out0_2 (F := Ideal) x0 x1 (ix2 r e)
      = ∑ d : Fin 128, GramBlock.comb x0 x1 r (rowF e) d * GramBlock.comb x0 x1 r (colF e) d := by
  unfold out0_2
  rw [View.canon_unit_zero hz2]
  simp only [View.ld_unit_zero (S := S512x128) hz2, View.ld_unit_zero (S := S512x26x128) hz3]
  exact (Triangle.payload_apply x0 x1 r e).trans (GramBlock.gram_apply x0 x1 r _ _)

/-- The index maps of the two arguments and of the result, decided over the grid: at point `t` every block index
    is `t` along the batch axis and `0` along the others. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row `r`, lane `d` of the dense block at point `t` is row `512 t + r`, lane `d` of the dense array. -/
theorem denseBlock_apply (c : Dev nD) (t : Fin cfg0.N) (r : Fin 512) (d : Fin 128) (b : Fin 65536)
    (hb : b.val = 512 * t.val + r.val) :
    (iblk m c 0 t : FVec Ideal S512x128 .f32) (ix2 r d) = (V m c main_arg0 : S65536x128.Idx → EReal) (ix2 b d) := by
  obtain ⟨e0, e1, -⟩ := idx_facts t
  show V m c main_arg0 (((cfg0.win 0).blk t).view.emb (ix2 r d)) = V m c main_arg0 (ix2 b d)
  refine congrArg (V m c main_arg0) (funext fun a => Fin.ext ?_)
  match a with
  | ⟨0, _⟩ => show win0_0.index t (0 : Fin 2) * 512 + 1 * r.val = b.val; rw [e0, hb]; omega
  | ⟨1, _⟩ => show win0_0.index t (1 : Fin 2) * 128 + 1 * d.val = d.val; rw [e1]; omega

/-- Row `r`, feature `s`, lane `d` of the sparse block at point `t` is row `512 t + r`, feature `s`, lane `d` of the
    sparse array. -/
theorem sparseBlock_apply (c : Dev nD) (t : Fin cfg0.N) (r : Fin 512) (s : Fin 26) (d : Fin 128) (b : Fin 65536)
    (hb : b.val = 512 * t.val + r.val) :
    (iblk m c 1 t : FVec Ideal S512x26x128 .f32) (ix3 r s d)
      = (V m c main_arg1 : S65536x26x128.Idx → EReal) (ix3 b s d) := by
  obtain ⟨-, -, e2, e3, e4, -⟩ := idx_facts t
  show V m c main_arg1 (((cfg0.win 1).blk t).view.emb (ix3 r s d)) = V m c main_arg1 (ix3 b s d)
  refine congrArg (V m c main_arg1) (funext fun a => Fin.ext ?_)
  match a with
  | ⟨0, _⟩ => show win0_1.index t (0 : Fin 3) * 512 + 1 * r.val = b.val; rw [e2, hb]; omega
  | ⟨1, _⟩ => show win0_1.index t (1 : Fin 3) * 26 + 1 * s.val = s.val; rw [e3]; omega
  | ⟨2, _⟩ => show win0_1.index t (2 : Fin 3) * 128 + 1 * d.val = d.val; rw [e4]; omega

/-- The feature vectors of row `r` of point `t`'s blocks are those of batch row `512 t + r` of the arrays. -/
theorem comb_block (c : Dev nD) (t : Fin cfg0.N) (r : Fin 512) (b : Fin 65536) (hb : b.val = 512 * t.val + r.val)
    (f : Fin 27) (d : Fin 128) :
    GramBlock.comb (iblk m c 0 t) (iblk m c 1 t) r f d
      = Cert.Spec.comb (V m c main_arg0) (V m c main_arg1) b f d := by
  unfold GramBlock.comb Cert.Spec.comb
  by_cases h0 : f.val = 0
  · rw [dif_pos h0, dif_pos h0]; exact denseBlock_apply m c t r d b hb
  · rw [dif_neg h0, dif_neg h0]; exact sparseBlock_apply m c t r _ d b hb

/-- WHAT POINT `t` WRITES BACK is block `t` of `Cert.Spec.G` of the argument arrays. -/
theorem flushed_eq (c : Dev nD) (t : Fin cfg0.N) :
    (dats m 0 c).flushed 2 t
      = ((cfg0.win 2).blk t).view.read (Elt Ideal) (Cert.Spec.G (V m c main_arg0) (V m c main_arg1)) := by
  rw [Value.flushed2]
  refine funext fun (j : S512x351.Idx) => ?_
  obtain ⟨r, e, rfl⟩ : ∃ (r : Fin 512) (e : Fin 351), j = ix2 r e := ⟨j 0, j 1, eq_ix2 j⟩
  have hN : cfg0.N = 128 := N_0
  have hb : 512 * t.val + r.val < 65536 := by have := t.isLt; have := r.isLt; omega
  obtain ⟨-, -, -, -, -, e5, e6⟩ := idx_facts t
  have hemb : ((cfg0.win 2).blk t).view.emb (ix2 r e) = (ix2 (⟨512 * t.val + r.val, hb⟩ : Fin 65536) e : S65536x351.Idx) := by
    funext a; apply Fin.ext
    match a with
    | ⟨0, _⟩ => show win0_2.index t (0 : Fin 2) * 512 + 1 * r.val = 512 * t.val + r.val; rw [e5]; omega
    | ⟨1, _⟩ => show win0_2.index t (1 : Fin 2) * 351 + 1 * e.val = e.val; rw [e6]; omega
  show out0_2 (F := Ideal) (iblk m c 0 t) (iblk m c 1 t) (ix2 r e)
    = Cert.Spec.G (V m c main_arg0) (V m c main_arg1) (((cfg0.win 2).blk t).view.emb (ix2 r e))
  rw [hemb, Cert.Spec.G_apply]
  refine (block_apply (iblk m c 0 t) (iblk m c 1 t) r e).trans ?_
  unfold Cert.Spec.gram
  exact Finset.sum_congr rfl fun d _ => by
    rw [comb_block m c t r ⟨512 * t.val + r.val, hb⟩ rfl, comb_block m c t r ⟨512 * t.val + r.val, hb⟩ rfl]

/-- An index of the result array is in point `t`'s block iff each coordinate is in the block's range on its axis. -/
theorem mem_blk (t : Fin cfg0.N) (i : S65536x351.Idx) :
    i ∈ ((cfg0.win 2).blk t).view.set ↔ ∀ a : Fin 2, win0_2.index t a * S512x351.size a ≤ (i a).val
      ∧ (i a).val < win0_2.index t a * S512x351.size a + S512x351.size a := by
  show i ∈ ((View.whole main_v0).slice (win0_2.rect t)).set ↔ _
  rw [View.set_slice_whole, Rect.mem_set_unit]
  exact Iff.rfl

/-- The blocks cover the result: row `b` is in the block of point `b / 512`. -/
theorem cover (i : S65536x351.Idx) :
    ∃ t : Fin cfg0.N, (cfg0.win 2).flush t = true ∧ i ∈ ((cfg0.win 2).blk t).view.set := by
  have hi0 : (i 0).val < 65536 := (i 0).isLt
  have hi1 : (i 1).val < 351 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, -, -, -, e5, e6⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e5, ht]; omega
  | ⟨1, _⟩ =>
    show win0_2.index t (1 : Fin 2) * 351 ≤ (i 1).val ∧ (i 1).val < win0_2.index t (1 : Fin 2) * 351 + 351
    rw [e6]; omega

/-- THE ARRAY after the run: `Cert.Spec.G` of the argument arrays. -/
theorem final (c : Dev nD) : (dats m 0 c).arrAt 2 cfg0.N
    = Cert.Spec.G (m ((c : Thread nD τ).loc main_arg0)) (m ((c : Thread nD τ).loc main_arg1)) :=
  (dats m 0 c).arrAt_eq_of_cover 2 (Cert.Spec.G (V m c main_arg0) (V m c main_arg1)) (fun t _ => flushed_eq m c t) cover

/-- The kernel's run, read: every weakly fair execution ends with the result array at `Cert.Spec.G` of the two
    argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefOps.lean ====
/-
  The reference program's @main as one straight line of host operations.  The functions the program outlines — the
  triangular mask, the two running counts, the clip, the two floor quotients and the two floor remainders, and the
  selects they call — are substituted at their call sites, each over the buffers its call names, so that @main is
  a list of 138 operations run in order, here cut into seven consecutive stretches after what each computes; every
  buffer then ends at the fold of the operations' results over the launch contents.
-/
import proofs.«111080_j790273983046_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every batch row's Gram matrix: the dense row as a 1 × 128 slab, laid before the 26 sparse rows, contracted with itself over the 128 features. -/
abbrev gramOps : List (HloOp τ sig (Elt F)) :=
  [ unary main_arg0 main_v0 (broadcastInDim S65536x1x128 ![0, 2] bcast_S65536x128_S65536x1x128_0_2 : (⟨S65536x128, .f32⟩ : BufTy).Contents (Elt F) → (⟨S65536x1x128, .f32⟩ : BufTy).Contents (Elt F)),
    binary main_v0 main_arg1 main_v1 ((fun a b => concatenate S65536x27x128 1 [⟨S65536x1x128, a⟩, ⟨S65536x26x128, b⟩] concatenates_S65536x1x128_S65536x26x128_S65536x27x128_d1) : (⟨S65536x1x128, .f32⟩ : BufTy).Contents (Elt F) → (⟨S65536x26x128, .f32⟩ : BufTy).Contents (Elt F) → (⟨S65536x27x128, .f32⟩ : BufTy).Contents (Elt F)),
    binary main_v1 main_v1 main_v2 ((fun l r => Host.dotGeneral dot_S65536x27x128_S65536x27x128_S65536x27x27_2_2_1_1_0_0 none l r) : (⟨S65536x27x128, .f32⟩ : BufTy).Contents (Elt F) → (⟨S65536x27x128, .f32⟩ : BufTy).Contents (Elt F) → (⟨S65536x27x27, .f32⟩ : BufTy).Contents (Elt F)) ]

/-- The flat positions of the strict upper triangle's pairs, from constants alone: the mask of ones above the diagonal (@triu, then the comparison with zero), its running count (@cumsum: the reshape, the widening, @cumsum_0's windowed sum), the clip at zero (@clip) and the wrap into 351 places, the histogram of the running count (a scatter of ones), and the histogram's running count (@cumsum_2's windowed sum, through @cumsum_1). -/
abbrev tableOps : List (HloOp τ sig (Elt F)) :=
  [ nullary main_cst (constant S_ .f32 0x3F800000#32),
    unary main_cst main_v3 (broadcastInDim S27x27 ![] bcast_S_S27x27 : (⟨S_, .f32⟩ : BufTy).Contents (Elt F) → (⟨S27x27, .f32⟩ : BufTy).Contents (Elt F)),
    TRef.nullary main_call0.v0 (iotaInDim S27x27 32 0),
    TRef.nullary main_call0.c (constantI S_ 32 0#32),
    TRef.unary main_call0.c main_call0.v1 (broadcastInDim S27x27 ![] bcast_S_S27x27),
    TRef.binary main_call0.v0 main_call0.v1 main_call0.v2 addi,
    TRef.nullary main_call0.v3 (iotaInDim S27x27 32 1),
    TRef.binary main_call0.v2 main_call0.v3 main_call0.v4 (cmpi .sge),
    TRef.nullary main_call0.cst (constant S_ .f32 0x00000000#32),
    TRef.unary main_call0.cst main_call0.v5 (broadcastInDim S27x27 ![] bcast_S_S27x27),
    TRef.ternary main_call0.v4 main_call0.v5 (TRef.of main_v3 : TRef sig ⟨S27x27, .f32⟩) main_call0.v6 select,
    nullary main_cst_0 (constant S_ .f32 0x00000000#32),
    unary main_cst_0 main_v5 (broadcastInDim S27x27 ![] bcast_S_S27x27 : (⟨S_, .f32⟩ : BufTy).Contents (Elt F) → (⟨S27x27, .f32⟩ : BufTy).Contents (Elt F)),
    binary main_v4 main_v5 main_v6 (cmpf .une : (⟨S27x27, .f32⟩ : BufTy).Contents (Elt F) → (⟨S27x27, .f32⟩ : BufTy).Contents (Elt F) → (⟨S27x27, .i1⟩ : BufTy).Contents (Elt F)),
    TRef.reshape (TRef.of main_v6 : TRef sig ⟨S27x27, .i1⟩) main_call1.v0 rfl shapeCasts_S27x27_S729,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![729] ![1] ![728] ![0] x v reduceWindows_S729_S729_w729s1p728_0 h_S_),
    nullary main_c (constantI S_ 32 0#32),
    unary main_c main_v8 (broadcastInDim S351 ![] bcast_S_S351 : (⟨S_, .i32⟩ : BufTy).Contents (Elt F) → (⟨S351, .i32⟩ : BufTy).Contents (Elt F)),
    nullary main_c_1 (constantI S_ 32 0#32),
    TRef.unary (TRef.of main_c_1 : TRef sig ⟨S_, .i32⟩) main_call2.v0 id,
    TRef.unary main_call2.v0 main_call2.v1 (broadcastInDim S729 ![] bcast_S_S729),
    TRef.binary main_call2.v1 (TRef.of main_v7 : TRef sig ⟨S729, .i32⟩) main_call2.v2 maxsi,
    nullary main_c_2 (constantI S_ 32 0#32),
    unary main_c_2 main_v10 (broadcastInDim S729 ![] bcast_S_S729 : (⟨S_, .i32⟩ : BufTy).Contents (Elt F) → (⟨S729, .i32⟩ : BufTy).Contents (Elt F)),
    binary main_v9 main_v10 main_v11 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v12 (broadcastInDim S729 ![] bcast_S_S729 : (⟨S_, .i32⟩ : BufTy).Contents (Elt F) → (⟨S729, .i32⟩ : BufTy).Contents (Elt F)),
    binary main_v9 main_v12 main_v13 (addi : (⟨S729, .i32⟩ : BufTy).Contents (Elt F) → (⟨S729, .i32⟩ : BufTy).Contents (Elt F) → (⟨S729, .i32⟩ : BufTy).Contents (Elt F)),
    ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v14 main_v15 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v16 (broadcastInDim S729 ![] bcast_S_S729 : (⟨S_, .i32⟩ : BufTy).Contents (Elt F) → (⟨S729, .i32⟩ : BufTy).Contents (Elt F)),
    ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    TRef.nullary main_call3.call0.c (constantI S_ 32 0#32),
    TRef.unary main_call3.call0.c main_call3.call0.v0 (broadcastInDim S_ ![] bcast_S_S_),
    TRef.binary (TRef.of main_v17 : TRef sig ⟨S351, .i32⟩) main_call3.call0.v0 main_call3.call0.v1 (fun x v => Host.reduceWindow IntOp.addi ![351] ![1] ![350] ![0] x v reduceWindows_S351_S351_w351s1p350_0 h_S_) ]

/-- The floor quotient of the flat positions by 27 (@floor_divide, its select in @_where). -/
abbrev quotRowOps : List (HloOp τ sig (Elt F)) :=
  [ nullary main_c_5 (constantI S_ 32 27#32),
    TRef.unary (TRef.of main_c_5 : TRef sig ⟨S_, .i32⟩) main_call4.v0 (broadcastInDim S351 ![] bcast_S_S351),
    TRef.binary (TRef.of main_v18 : TRef sig ⟨S351, .i32⟩) main_call4.v0 main_call4.v1 Host.divsi,
    TRef.unary (TRef.of main_v18 : TRef sig ⟨S351, .i32⟩) main_call4.v2 signi,
    TRef.unary (TRef.of main_c_5 : TRef sig ⟨S_, .i32⟩) main_call4.v3 signi,
    TRef.unary main_call4.v3 main_call4.v4 (broadcastInDim S351 ![] bcast_S_S351),
    TRef.binary main_call4.v2 main_call4.v4 main_call4.v5 (cmpi .ne),
    TRef.unary (TRef.of main_c_5 : TRef sig ⟨S_, .i32⟩) main_call4.v6 (broadcastInDim S351 ![] bcast_S_S351),
    TRef.binary (TRef.of main_v18 : TRef sig ⟨S351, .i32⟩) main_call4.v6 main_call4.v7 Host.remsi,
    TRef.nullary main_call4.c (constantI S_ 32 0#32),
    TRef.unary main_call4.c main_call4.v8 (broadcastInDim S351 ![] bcast_S_S351),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S351 ![] bcast_S_S351),
    TRef.binary main_call4.v1 main_call4.v11 main_call4.v12 subi,
    TRef.ternary main_call4.v10 main_call4.v12 main_call4.v1 main_call4.call0.v0 select ]

/-- The floor remainder of that quotient by 27 (@remainder, its divisor guarded against zero in @_where_3): the pairs' rows. -/
abbrev remRowOps : List (HloOp τ sig (Elt F)) :=
  [ nullary main_c_6 (constantI S_ 32 27#32),
    TRef.unary (TRef.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S351 ![] bcast_S_S351),
    TRef.binary (TRef.of main_v19 : TRef sig ⟨S351, .i32⟩) main_call5.v3 main_call5.v4 Host.remsi,
    TRef.nullary main_call5.c_1 (constantI S_ 32 0#32),
    TRef.unary main_call5.c_1 main_call5.v5 (broadcastInDim S351 ![] bcast_S_S351),
    TRef.binary main_call5.v4 main_call5.v5 main_call5.v6 (cmpi .ne),
    TRef.nullary main_call5.c_2 (constantI S_ 32 0#32),
    TRef.unary main_call5.c_2 main_call5.v7 (broadcastInDim S351 ![] bcast_S_S351),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S351 ![] bcast_S_S351),
    TRef.binary main_call5.v8 main_call5.v10 main_call5.v11 (cmpi .ne),
    TRef.binary main_call5.v11 main_call5.v6 main_call5.v12 andi,
    TRef.unary main_call5.call0.v0 main_call5.v13 (broadcastInDim S351 ![] bcast_S_S351),
    TRef.binary main_call5.v4 main_call5.v13 main_call5.v14 addi,
    TRef.ternary main_call5.v12 main_call5.v14 main_call5.v4 main_call5.v15 select ]

/-- The floor quotient of the flat positions by 1 (@floor_divide again). -/
abbrev quotColOps : List (HloOp τ sig (Elt F)) :=
  [ nullary main_c_7 (constantI S_ 32 1#32),
    TRef.unary (TRef.of main_c_7 : TRef sig ⟨S_, .i32⟩) main_call6.v0 (broadcastInDim S351 ![] bcast_S_S351),
    TRef.binary (TRef.of main_v18 : TRef sig ⟨S351, .i32⟩) main_call6.v0 main_call6.v1 Host.divsi,
    TRef.unary (TRef.of main_v18 : TRef sig ⟨S351, .i32⟩) main_call6.v2 signi,
    TRef.unary (TRef.of main_c_7 : TRef sig ⟨S_, .i32⟩) main_call6.v3 signi,
    TRef.unary main_call6.v3 main_call6.v4 (broadcastInDim S351 ![] bcast_S_S351),
    TRef.binary main_call6.v2 main_call6.v4 main_call6.v5 (cmpi .ne),
    TRef.unary (TRef.of main_c_7 : TRef sig ⟨S_, .i32⟩) main_call6.v6 (broadcastInDim S351 ![] bcast_S_S351),
    TRef.binary (TRef.of main_v18 : TRef sig ⟨S351, .i32⟩) main_call6.v6 main_call6.v7 Host.remsi,
    TRef.nullary main_call6.c (constantI S_ 32 0#32),
    TRef.unary main_call6.c main_call6.v8 (broadcastInDim S351 ![] bcast_S_S351),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S351 ![] bcast_S_S351),
    TRef.binary main_call6.v1 main_call6.v11 main_call6.v12 subi,
    TRef.ternary main_call6.v10 main_call6.v12 main_call6.v1 main_call6.call0.v0 select ]

/-- Its floor remainder by 27 (@remainder again): the pairs' columns. -/
abbrev remColOps : List (HloOp τ sig (Elt F)) :=
  [ nullary main_c_8 (constantI S_ 32 27#32),
    TRef.unary (TRef.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S351 ![] bcast_S_S351),
    TRef.binary (TRef.of main_v21 : TRef sig ⟨S351, .i32⟩) main_call7.v3 main_call7.v4 Host.remsi,
    TRef.nullary main_call7.c_1 (constantI S_ 32 0#32),
    TRef.unary main_call7.c_1 main_call7.v5 (broadcastInDim S351 ![] bcast_S_S351),
    TRef.binary main_call7.v4 main_call7.v5 main_call7.v6 (cmpi .ne),
    TRef.nullary main_call7.c_2 (constantI S_ 32 0#32),
    TRef.unary main_call7.c_2 main_call7.v7 (broadcastInDim S351 ![] bcast_S_S351),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S351 ![] bcast_S_S351),
    TRef.binary main_call7.v8 main_call7.v10 main_call7.v11 (cmpi .ne),
    TRef.binary main_call7.v11 main_call7.v6 main_call7.v12 andi,
    TRef.unary main_call7.call0.v0 main_call7.v13 (broadcastInDim S351 ![] bcast_S_S351),
    TRef.binary main_call7.v4 main_call7.v13 main_call7.v14 addi,
    TRef.ternary main_call7.v12 main_call7.v14 main_call7.v4 main_call7.v15 select ]

/-- Rows and columns wrapped into 27 places, laid side by side as a 351 × 2 table, and the Gram entries gathered at the table's pairs. -/
abbrev gatherOps : List (HloOp τ sig (Elt F)) :=
  [ nullary main_c_9 (constantI S_ 32 0#32),
    unary main_c_9 main_v23 (broadcastInDim S351 ![] bcast_S_S351 : (⟨S_, .i32⟩ : BufTy).Contents (Elt F) → (⟨S351, .i32⟩ : BufTy).Contents (Elt F)),
    binary main_v20 main_v23 main_v24 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v25 (broadcastInDim S351 ![] bcast_S_S351 : (⟨S_, .i32⟩ : BufTy).Contents (Elt F) → (⟨S351, .i32⟩ : BufTy).Contents (Elt F)),
    binary main_v20 main_v25 main_v26 (addi : (⟨S351, .i32⟩ : BufTy).Contents (Elt F) → (⟨S351, .i32⟩ : BufTy).Contents (Elt F) → (⟨S351, .i32⟩ : BufTy).Contents (Elt F)),
    ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v28 (broadcastInDim S351 ![] bcast_S_S351 : (⟨S_, .i32⟩ : BufTy).Contents (Elt F) → (⟨S351, .i32⟩ : BufTy).Contents (Elt F)),
    binary main_v22 main_v28 main_v29 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v30 (broadcastInDim S351 ![] bcast_S_S351 : (⟨S_, .i32⟩ : BufTy).Contents (Elt F) → (⟨S351, .i32⟩ : BufTy).Contents (Elt F)),
    binary main_v22 main_v30 main_v31 (addi : (⟨S351, .i32⟩ : BufTy).Contents (Elt F) → (⟨S351, .i32⟩ : BufTy).Contents (Elt F) → (⟨S351, .i32⟩ : BufTy).Contents (Elt F)),
    ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v27 main_v33 (broadcastInDim S351x1 ![0] bcast_S351_S351x1_0 : (⟨S351, .i32⟩ : BufTy).Contents (Elt F) → (⟨S351x1, .i32⟩ : BufTy).Contents (Elt F)),
    unary main_v32 main_v34 (broadcastInDim S351x1 ![0] bcast_S351_S351x1_0 : (⟨S351, .i32⟩ : BufTy).Contents (Elt F) → (⟨S351x1, .i32⟩ : BufTy).Contents (Elt F)),
    binary main_v33 main_v34 main_v35 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v2 main_v35 main_v36 ((fun x i => Host.gather gather_S65536x27x27_S351x2_S65536x351_0_12_n_n_12_1_6553611 x i) : (⟨S65536x27x27, .f32⟩ : BufTy).Contents (Elt F) → (⟨S351x2, .i32⟩ : BufTy).Contents (Elt F) → (⟨S65536x351, .f32⟩ : BufTy).Contents (Elt F)) ]

/-- @main's 138 operations in order, the calls unfolded: the seven stretches one after the other. -/
abbrev ops : List (HloOp τ sig (Elt F)) :=
  gramOps ++ (tableOps ++ (quotRowOps ++ (remRowOps ++ (quotColOps ++ (remColOps ++ gatherOps)))))

set_option maxRecDepth 16384 in
set_option maxHeartbeats 1000000 in
/-- @main is that straight line: the functions' definitions unfolded at their calls and the stretches joined, both
    sides are one chain of operation steps once the sequencing is reassociated. -/
theorem main_eq (c : Dev nD) : main (F := F) c = seq ops := by
  simp only [ops, gramOps, tableOps, quotRowOps, remRowOps, quotColOps, remColOps, gatherOps, List.cons_append, List.nil_append,
    main, fn_triu.body, fn_cumsum.body, fn_cumsum_0.body, fn_clip.body, fn_cumsum_1.body, fn_cumsum_2.body,
    fn_floor_divide.body, fn_where.body, fn_remainder.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, gramOps, tableOps, quotRowOps, remRowOps, quotColOps, remColOps, gatherOps, List.cons_append, List.nil_append]
  exact ⟨unary_bufs_sub .., binary_bufs_sub .., binary_bufs_sub .., nullary_bufs_sub .., unary_bufs_sub .., nullary_bufs_sub ..,
    nullary_bufs_sub .., unary_bufs_sub .., binary_bufs_sub .., nullary_bufs_sub .., binary_bufs_sub .., nullary_bufs_sub ..,
    unary_bufs_sub .., ternary_bufs_sub .., nullary_bufs_sub .., unary_bufs_sub .., binary_bufs_sub .., reshape_bufs_sub ..,
    unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

/-- Every operation of the line determines its results (none allocates). -/
theorem ops_fresh : ∀ op ∈ (ops : List (HloOp τ sig (Elt F))), op.fresh = ∅ := by
  intro op h
  simp only [ops, gramOps, tableOps, quotRowOps, remRowOps, quotColOps, remColOps, gatherOps, List.cons_append, List.nil_append] at h
  repeat (cases h with | head => rfl | tail _ h => ?_)
  exact nomatch h

/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefPlain.lean ====
/-
  The reference's line of operations written over the literal buffers.  An outlined function's operation reaches a
  buffer through a reference that carries the tensor value's type and moves contents to the buffer's own type and
  back; at a literal buffer the two types are the same type and the move is the identity, so each such operation is
  the plain operation over the buffers themselves.  The seven stretches are restated in that plain form, and each is
  shown equal to the stretch it restates, operation by operation.
-/
import proofs.«111080_j790273983046_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch `gramOps` with each operation over its literal buffers. -/
abbrev gramOpsP : List (HloOp τ sig (Elt F)) :=
  [ unary main_arg0 main_v0 (broadcastInDim S65536x1x128 ![0, 2] bcast_S65536x128_S65536x1x128_0_2 : (⟨S65536x128, .f32⟩ : BufTy).Contents (Elt F) → (⟨S65536x1x128, .f32⟩ : BufTy).Contents (Elt F)),
    binary main_v0 main_arg1 main_v1 ((fun a b => concatenate S65536x27x128 1 [⟨S65536x1x128, a⟩, ⟨S65536x26x128, b⟩] concatenates_S65536x1x128_S65536x26x128_S65536x27x128_d1) : (⟨S65536x1x128, .f32⟩ : BufTy).Contents (Elt F) → (⟨S65536x26x128, .f32⟩ : BufTy).Contents (Elt F) → (⟨S65536x27x128, .f32⟩ : BufTy).Contents (Elt F)),
    binary main_v1 main_v1 main_v2 ((fun l r => Host.dotGeneral dot_S65536x27x128_S65536x27x128_S65536x27x27_2_2_1_1_0_0 none l r) : (⟨S65536x27x128, .f32⟩ : BufTy).Contents (Elt F) → (⟨S65536x27x128, .f32⟩ : BufTy).Contents (Elt F) → (⟨S65536x27x27, .f32⟩ : BufTy).Contents (Elt F)) ]

/-- The stretch `tableOps` with each operation over its literal buffers. -/
abbrev tableOpsP : List (HloOp τ sig (Elt F)) :=
  [ nullary main_cst (constant S_ .f32 0x3F800000#32),
    unary main_cst main_v3 (broadcastInDim S27x27 ![] bcast_S_S27x27 : (⟨S_, .f32⟩ : BufTy).Contents (Elt F) → (⟨S27x27, .f32⟩ : BufTy).Contents (Elt F)),
    nullary main_call0_v0 (iotaInDim S27x27 32 0),
    nullary main_call0_c (constantI S_ 32 0#32),
    unary main_call0_c main_call0_v1 (broadcastInDim S27x27 ![] bcast_S_S27x27),
    binary main_call0_v0 main_call0_v1 main_call0_v2 addi,
    nullary main_call0_v3 (iotaInDim S27x27 32 1),
    binary main_call0_v2 main_call0_v3 main_call0_v4 (cmpi .sge),
    nullary main_call0_cst (constant S_ .f32 0x00000000#32),
    unary main_call0_cst main_call0_v5 (broadcastInDim S27x27 ![] bcast_S_S27x27),
    ternary main_call0_v4 main_call0_v5 main_v3 main_v4 select,
    nullary main_cst_0 (constant S_ .f32 0x00000000#32),
    unary main_cst_0 main_v5 (broadcastInDim S27x27 ![] bcast_S_S27x27 : (⟨S_, .f32⟩ : BufTy).Contents (Elt F) → (⟨S27x27, .f32⟩ : BufTy).Contents (Elt F)),
    binary main_v4 main_v5 main_v6 (cmpf .une : (⟨S27x27, .f32⟩ : BufTy).Contents (Elt F) → (⟨S27x27, .f32⟩ : BufTy).Contents (Elt F) → (⟨S27x27, .i1⟩ : BufTy).Contents (Elt F)),
    reshape main_v6 main_call1_v0 rfl shapeCasts_S27x27_S729,
    unary main_call1_v0 main_call1_v1 (extui 32 · natLt_1_32),
    nullary main_call1_call0_c (constantI S_ 32 0#32),
    unary main_call1_call0_c main_call1_call0_v0 (broadcastInDim S_ ![] bcast_S_S_),
    binary main_call1_v1 main_call1_call0_v0 main_v7 (fun x v => Host.reduceWindow IntOp.addi ![729] ![1] ![728] ![0] x v reduceWindows_S729_S729_w729s1p728_0 h_S_),
    nullary main_c (constantI S_ 32 0#32),
    unary main_c main_v8 (broadcastInDim S351 ![] bcast_S_S351 : (⟨S_, .i32⟩ : BufTy).Contents (Elt F) → (⟨S351, .i32⟩ : BufTy).Contents (Elt F)),
    nullary main_c_1 (constantI S_ 32 0#32),
    unary main_c_1 main_call2_v0 id,
    unary main_call2_v0 main_call2_v1 (broadcastInDim S729 ![] bcast_S_S729),
    binary main_call2_v1 main_v7 main_v9 maxsi,
    nullary main_c_2 (constantI S_ 32 0#32),
    unary main_c_2 main_v10 (broadcastInDim S729 ![] bcast_S_S729 : (⟨S_, .i32⟩ : BufTy).Contents (Elt F) → (⟨S729, .i32⟩ : BufTy).Contents (Elt F)),
    binary main_v9 main_v10 main_v11 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v12 (broadcastInDim S729 ![] bcast_S_S729 : (⟨S_, .i32⟩ : BufTy).Contents (Elt F) → (⟨S729, .i32⟩ : BufTy).Contents (Elt F)),
    binary main_v9 main_v12 main_v13 (addi : (⟨S729, .i32⟩ : BufTy).Contents (Elt F) → (⟨S729, .i32⟩ : BufTy).Contents (Elt F) → (⟨S729, .i32⟩ : BufTy).Contents (Elt F)),
    ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v14 main_v15 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v16 (broadcastInDim S729 ![] bcast_S_S729 : (⟨S_, .i32⟩ : BufTy).Contents (Elt F) → (⟨S729, .i32⟩ : BufTy).Contents (Elt F)),
    ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    nullary main_call3_call0_c (constantI S_ 32 0#32),
    unary main_call3_call0_c main_call3_call0_v0 (broadcastInDim S_ ![] bcast_S_S_),
    binary main_v17 main_call3_call0_v0 main_v18 (fun x v => Host.reduceWindow IntOp.addi ![351] ![1] ![350] ![0] x v reduceWindows_S351_S351_w351s1p350_0 h_S_) ]

/-- The stretch `quotRowOps` with each operation over its literal buffers. -/
abbrev quotRowOpsP : List (HloOp τ sig (Elt F)) :=
  [ nullary main_c_5 (constantI S_ 32 27#32),
    unary main_c_5 main_call4_v0 (broadcastInDim S351 ![] bcast_S_S351),
    binary main_v18 main_call4_v0 main_call4_v1 Host.divsi,
    unary main_v18 main_call4_v2 signi,
    unary main_c_5 main_call4_v3 signi,
    unary main_call4_v3 main_call4_v4 (broadcastInDim S351 ![] bcast_S_S351),
    binary main_call4_v2 main_call4_v4 main_call4_v5 (cmpi .ne),
    unary main_c_5 main_call4_v6 (broadcastInDim S351 ![] bcast_S_S351),
    binary main_v18 main_call4_v6 main_call4_v7 Host.remsi,
    nullary main_call4_c (constantI S_ 32 0#32),
    unary main_call4_c main_call4_v8 (broadcastInDim S351 ![] bcast_S_S351),
    binary main_call4_v7 main_call4_v8 main_call4_v9 (cmpi .ne),
    binary main_call4_v5 main_call4_v9 main_call4_v10 andi,
    nullary main_call4_c_0 (constantI S_ 32 1#32),
    unary main_call4_c_0 main_call4_v11 (broadcastInDim S351 ![] bcast_S_S351),
    binary main_call4_v1 main_call4_v11 main_call4_v12 subi,
    ternary main_call4_v10 main_call4_v12 main_call4_v1 main_v19 select ]

/-- The stretch `remRowOps` with each operation over its literal buffers. -/
abbrev remRowOpsP : List (HloOp τ sig (Elt F)) :=
  [ nullary main_c_6 (constantI S_ 32 27#32),
    unary main_c_6 main_call5_v0 id,
    nullary main_call5_c (constantI S_ 32 0#32),
    binary main_call5_v0 main_call5_c main_call5_v1 (cmpi .eq),
    nullary main_call5_c_0 (constantI S_ 32 1#32),
    ternary main_call5_v1 main_call5_c_0 main_call5_v0 main_call5_v2 select,
    unary main_call5_v2 main_call5_v3 (broadcastInDim S351 ![] bcast_S_S351),
    binary main_v19 main_call5_v3 main_call5_v4 Host.remsi,
    nullary main_call5_c_1 (constantI S_ 32 0#32),
    unary main_call5_c_1 main_call5_v5 (broadcastInDim S351 ![] bcast_S_S351),
    binary main_call5_v4 main_call5_v5 main_call5_v6 (cmpi .ne),
    nullary main_call5_c_2 (constantI S_ 32 0#32),
    unary main_call5_c_2 main_call5_v7 (broadcastInDim S351 ![] bcast_S_S351),
    binary main_call5_v4 main_call5_v7 main_call5_v8 (cmpi .slt),
    nullary main_call5_c_3 (constantI S_ 32 0#32),
    binary main_call5_v2 main_call5_c_3 main_call5_v9 (cmpi .slt),
    unary main_call5_v9 main_call5_v10 (broadcastInDim S351 ![] bcast_S_S351),
    binary main_call5_v8 main_call5_v10 main_call5_v11 (cmpi .ne),
    binary main_call5_v11 main_call5_v6 main_call5_v12 andi,
    unary main_call5_v2 main_call5_v13 (broadcastInDim S351 ![] bcast_S_S351),
    binary main_call5_v4 main_call5_v13 main_call5_v14 addi,
    ternary main_call5_v12 main_call5_v14 main_call5_v4 main_v20 select ]

/-- The stretch `quotColOps` with each operation over its literal buffers. -/
abbrev quotColOpsP : List (HloOp τ sig (Elt F)) :=
  [ nullary main_c_7 (constantI S_ 32 1#32),
    unary main_c_7 main_call6_v0 (broadcastInDim S351 ![] bcast_S_S351),
    binary main_v18 main_call6_v0 main_call6_v1 Host.divsi,
    unary main_v18 main_call6_v2 signi,
    unary main_c_7 main_call6_v3 signi,
    unary main_call6_v3 main_call6_v4 (broadcastInDim S351 ![] bcast_S_S351),
    binary main_call6_v2 main_call6_v4 main_call6_v5 (cmpi .ne),
    unary main_c_7 main_call6_v6 (broadcastInDim S351 ![] bcast_S_S351),
    binary main_v18 main_call6_v6 main_call6_v7 Host.remsi,
    nullary main_call6_c (constantI S_ 32 0#32),
    unary main_call6_c main_call6_v8 (broadcastInDim S351 ![] bcast_S_S351),
    binary main_call6_v7 main_call6_v8 main_call6_v9 (cmpi .ne),
    binary main_call6_v5 main_call6_v9 main_call6_v10 andi,
    nullary main_call6_c_0 (constantI S_ 32 1#32),
    unary main_call6_c_0 main_call6_v11 (broadcastInDim S351 ![] bcast_S_S351),
    binary main_call6_v1 main_call6_v11 main_call6_v12 subi,
    ternary main_call6_v10 main_call6_v12 main_call6_v1 main_v21 select ]

/-- The stretch `remColOps` with each operation over its literal buffers. -/
abbrev remColOpsP : List (HloOp τ sig (Elt F)) :=
  [ nullary main_c_8 (constantI S_ 32 27#32),
    unary main_c_8 main_call7_v0 id,
    nullary main_call7_c (constantI S_ 32 0#32),
    binary main_call7_v0 main_call7_c main_call7_v1 (cmpi .eq),
    nullary main_call7_c_0 (constantI S_ 32 1#32),
    ternary main_call7_v1 main_call7_c_0 main_call7_v0 main_call7_v2 select,
    unary main_call7_v2 main_call7_v3 (broadcastInDim S351 ![] bcast_S_S351),
    binary main_v21 main_call7_v3 main_call7_v4 Host.remsi,
    nullary main_call7_c_1 (constantI S_ 32 0#32),
    unary main_call7_c_1 main_call7_v5 (broadcastInDim S351 ![] bcast_S_S351),
    binary main_call7_v4 main_call7_v5 main_call7_v6 (cmpi .ne),
    nullary main_call7_c_2 (constantI S_ 32 0#32),
    unary main_call7_c_2 main_call7_v7 (broadcastInDim S351 ![] bcast_S_S351),
    binary main_call7_v4 main_call7_v7 main_call7_v8 (cmpi .slt),
    nullary main_call7_c_3 (constantI S_ 32 0#32),
    binary main_call7_v2 main_call7_c_3 main_call7_v9 (cmpi .slt),
    unary main_call7_v9 main_call7_v10 (broadcastInDim S351 ![] bcast_S_S351),
    binary main_call7_v8 main_call7_v10 main_call7_v11 (cmpi .ne),
    binary main_call7_v11 main_call7_v6 main_call7_v12 andi,
    unary main_call7_v2 main_call7_v13 (broadcastInDim S351 ![] bcast_S_S351),
    binary main_call7_v4 main_call7_v13 main_call7_v14 addi,
    ternary main_call7_v12 main_call7_v14 main_call7_v4 main_v22 select ]

/-- The stretch `gatherOps` with each operation over its literal buffers. -/
abbrev gatherOpsP : List (HloOp τ sig (Elt F)) :=
  [ nullary main_c_9 (constantI S_ 32 0#32),
    unary main_c_9 main_v23 (broadcastInDim S351 ![] bcast_S_S351 : (⟨S_, .i32⟩ : BufTy).Contents (Elt F) → (⟨S351, .i32⟩ : BufTy).Contents (Elt F)),
    binary main_v20 main_v23 main_v24 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v25 (broadcastInDim S351 ![] bcast_S_S351 : (⟨S_, .i32⟩ : BufTy).Contents (Elt F) → (⟨S351, .i32⟩ : BufTy).Contents (Elt F)),
    binary main_v20 main_v25 main_v26 (addi : (⟨S351, .i32⟩ : BufTy).Contents (Elt F) → (⟨S351, .i32⟩ : BufTy).Contents (Elt F) → (⟨S351, .i32⟩ : BufTy).Contents (Elt F)),
    ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v28 (broadcastInDim S351 ![] bcast_S_S351 : (⟨S_, .i32⟩ : BufTy).Contents (Elt F) → (⟨S351, .i32⟩ : BufTy).Contents (Elt F)),
    binary main_v22 main_v28 main_v29 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v30 (broadcastInDim S351 ![] bcast_S_S351 : (⟨S_, .i32⟩ : BufTy).Contents (Elt F) → (⟨S351, .i32⟩ : BufTy).Contents (Elt F)),
    binary main_v22 main_v30 main_v31 (addi : (⟨S351, .i32⟩ : BufTy).Contents (Elt F) → (⟨S351, .i32⟩ : BufTy).Contents (Elt F) → (⟨S351, .i32⟩ : BufTy).Contents (Elt F)),
    ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v27 main_v33 (broadcastInDim S351x1 ![0] bcast_S351_S351x1_0 : (⟨S351, .i32⟩ : BufTy).Contents (Elt F) → (⟨S351x1, .i32⟩ : BufTy).Contents (Elt F)),
    unary main_v32 main_v34 (broadcastInDim S351x1 ![0] bcast_S351_S351x1_0 : (⟨S351, .i32⟩ : BufTy).Contents (Elt F) → (⟨S351x1, .i32⟩ : BufTy).Contents (Elt F)),
    binary main_v33 main_v34 main_v35 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v2 main_v35 main_v36 ((fun x i => Host.gather gather_S65536x27x27_S351x2_S65536x351_0_12_n_n_12_1_6553611 x i) : (⟨S65536x27x27, .f32⟩ : BufTy).Contents (Elt F) → (⟨S351x2, .i32⟩ : BufTy).Contents (Elt F) → (⟨S65536x351, .f32⟩ : BufTy).Contents (Elt F)) ]

/-! ## Each stretch is its plain form, operation by operation -/

theorem gramOps_plain : (gramOps : List (HloOp τ sig (Elt F))) = gramOpsP := by
  unfold gramOps gramOpsP
  repeat (first | refine congrArg₂ List.cons rfl ?_ | rfl)

attribute [local irreducible] Host.reduceWindow in
theorem tableOps_plain : (tableOps : List (HloOp τ sig (Elt F))) = tableOpsP := by
  unfold tableOps tableOpsP
  repeat (first | refine congrArg₂ List.cons rfl ?_ | rfl)

theorem quotRowOps_plain : (quotRowOps : List (HloOp τ sig (Elt F))) = quotRowOpsP := by
  unfold quotRowOps quotRowOpsP
  repeat (first | refine congrArg₂ List.cons rfl ?_ | rfl)

theorem remRowOps_plain : (remRowOps : List (HloOp τ sig (Elt F))) = remRowOpsP := by
  unfold remRowOps remRowOpsP
  repeat (first | refine congrArg₂ List.cons rfl ?_ | rfl)

theorem quotColOps_plain : (quotColOps : List (HloOp τ sig (Elt F))) = quotColOpsP := by
  unfold quotColOps quotColOpsP
  repeat (first | refine congrArg₂ List.cons rfl ?_ | rfl)

theorem remColOps_plain : (remColOps : List (HloOp τ sig (Elt F))) = remColOpsP := by
  unfold remColOps remColOpsP
  repeat (first | refine congrArg₂ List.cons rfl ?_ | rfl)

theorem gatherOps_plain : (gatherOps : List (HloOp τ sig (Elt F))) = gatherOpsP := by
  unfold gatherOps gatherOpsP
  repeat (first | refine congrArg₂ List.cons rfl ?_ | rfl)

/-- The whole line is the plain stretches one after the other. -/
theorem ops_plain : (ops : List (HloOp τ sig (Elt F))) =
    gramOpsP ++ (tableOpsP ++ (quotRowOpsP ++ (remRowOpsP ++ (quotColOpsP ++ (remColOpsP ++ gatherOpsP))))) := by
  unfold ops
  rw [gramOps_plain, tableOps_plain, quotRowOps_plain, remRowOps_plain, quotColOps_plain, remColOps_plain, gatherOps_plain]

end Cert.ReferenceIdeal.RefRun

end
-- ==== Proof.RefTerm.lean ====
/-
  The reference's result as a composition of named stages, each the host operation the program applies, in the
  program's order.  The reference builds the index pairs of the strict upper triangle of a 27 × 27 matrix from
  constants alone — a triangular mask of ones, its running count, a histogram of the running count, the running
  count of the histogram, and that number's quotient and remainder by 27 — and then gathers, for every batch row,
  the Gram matrix's entries at those pairs.
-/
import proofs.«111080_j790273983046_2_alg».proof.Proof.Gen.ReferenceIdeal
import Idealize.ShloMosaic.PureOps.Ideal

noncomputable section

namespace Cert.ReferenceIdeal.RefTerm

open Cert.ReferenceIdeal Idealize.ShloMosaic
open Cert.ReferenceIdeal.Facts₀

/-- A scalar word broadcast along 351, 729 entries. -/
abbrev b351 {α : Type} (x : S_.Idx → α) : S351.Idx → α := broadcastInDim S351 ![] bcast_S_S351 x
abbrev b729 {α : Type} (x : S_.Idx → α) : S729.Idx → α := broadcastInDim S729 ![] bcast_S_S729 x

/-- Ones above the diagonal, zeros on and below it: a 27 × 27 array of ones with the entries whose row is at
    least their column replaced by zero. -/
def triu : FVec Ideal S27x27 .f32 :=
  select (cmpi .sge (addi (iotaInDim S27x27 32 0) (broadcastInDim S27x27 ![] bcast_S_S27x27 (constantI S_ 32 0#32)))
      (iotaInDim S27x27 32 1))
    (broadcastInDim S27x27 ![] bcast_S_S27x27 (constant (F := Ideal) S_ .f32 0x00000000#32))
    (broadcastInDim S27x27 ![] bcast_S_S27x27 (constant (F := Ideal) S_ .f32 0x3F800000#32))

/-- Where that array is not zero. -/
def mask : IVec S27x27 1 :=
  cmpf .une triu (broadcastInDim S27x27 ![] bcast_S_S27x27 (constant (F := Ideal) S_ .f32 0x00000000#32))

/-- The mask, flattened row by row, as 32-bit words. -/
def maskWords : IVec S729 32 := extui 32 (shapeCast S729 mask shapeCasts_S27x27_S729) natLt_1_32

/-- The running count of the flattened mask. -/
def csum : IVec S729 32 :=
  Host.reduceWindow IntOp.addi ![729] ![1] ![728] ![0] maskWords
    (broadcastInDim S_ ![] bcast_S_S_ (constantI S_ 32 0#32)) reduceWindows_S729_S729_w729s1p728_0 h_S_

/-- The running count clipped below at zero, then read as an index into 351 places (a negative one counted from the end). -/
def clipped : IVec S729 32 := maxsi (b729 (id (constantI S_ 32 0#32))) csum
def binIdx : IVec S729 32 :=
  select (cmpi .slt clipped (b729 (constantI S_ 32 0#32))) (addi clipped (b729 (constantI S_ 32 351#32))) clipped

/-- The histogram of the running count over the places 0 … 350: one added at each position's place. -/
def hist : IVec S351 32 :=
  Host.scatter scatter_S351_S729x1_S729_n_0_0_1 IntOp.addi (b351 (constantI S_ 32 0#32))
    (broadcastInDim S729x1 ![0] bcast_S729_S729x1_0 binIdx) (b729 (constantI S_ 32 1#32))

/-- The running count of the histogram: the flat position of each pair. -/
def flat : IVec S351 32 :=
  Host.reduceWindow IntOp.addi ![351] ![1] ![350] ![0] hist
    (broadcastInDim S_ ![] bcast_S_S_ (constantI S_ 32 0#32)) reduceWindows_S351_S351_w351s1p350_0 h_S_

/-- The quotient rounded toward minus infinity, as the program computes it from the truncating quotient. -/
def floorDiv (a : IVec S351 32) (d : IVec S_ 32) : IVec S351 32 :=
  select (andi (cmpi .ne (signi a) (b351 (signi d))) (cmpi .ne (Host.remsi a (b351 d)) (b351 (constantI S_ 32 0#32))))
    (subi (Host.divsi a (b351 d)) (b351 (constantI S_ 32 1#32))) (Host.divsi a (b351 d))

/-- The divisor with zero replaced by one. -/
def safeDiv (d : IVec S_ 32) : IVec S_ 32 := select (cmpi .eq (id d) (constantI S_ 32 0#32)) (constantI S_ 32 1#32) (id d)

/-- The remainder with the divisor's sign, as the program computes it from the truncating remainder. -/
def floorRem (a : IVec S351 32) (d : IVec S_ 32) : IVec S351 32 :=
  select (andi (cmpi .ne (cmpi .slt (Host.remsi a (b351 (safeDiv d))) (b351 (constantI S_ 32 0#32)))
        (b351 (cmpi .slt (safeDiv d) (constantI S_ 32 0#32))))
      (cmpi .ne (Host.remsi a (b351 (safeDiv d))) (b351 (constantI S_ 32 0#32))))
    (addi (Host.remsi a (b351 (safeDiv d))) (b351 (safeDiv d))) (Host.remsi a (b351 (safeDiv d)))

/-- An index into 27 places, a negative one counted from the end. -/
def wrap27 (a : IVec S351 32) : IVec S351 32 :=
  select (cmpi .slt a (b351 (constantI S_ 32 0#32))) (addi a (b351 (constantI S_ 32 27#32))) a

/-- The triangle rows and the triangle columns of the 351 pairs. -/
def rows : IVec S351 32 := wrap27 (floorRem (floorDiv flat (constantI S_ 32 27#32)) (constantI S_ 32 27#32))
def cols : IVec S351 32 := wrap27 (floorRem (floorDiv flat (constantI S_ 32 1#32)) (constantI S_ 32 27#32))

/-- The pairs, one per row of a 351 × 2 array. -/
def pairs : IVec S351x2 32 :=
  concatenate S351x2 1 [⟨S351x1, broadcastInDim S351x1 ![0] bcast_S351_S351x1_0 rows⟩,
    ⟨S351x1, broadcastInDim S351x1 ![0] bcast_S351_S351x1_0 cols⟩] concatenates_S351x1_S351x1_S351x2_d1

/-- The 27 features of every batch row: the dense row first, then the 26 sparse features. -/
def combined (x : FVec Ideal S65536x128 .f32) (y : FVec Ideal S65536x26x128 .f32) : FVec Ideal S65536x27x128 .f32 :=
  concatenate S65536x27x128 1 [⟨S65536x1x128, broadcastInDim S65536x1x128 ![0, 2] bcast_S65536x128_S65536x1x128_0_2 x⟩,
    ⟨S65536x26x128, y⟩] concatenates_S65536x1x128_S65536x26x128_S65536x27x128_d1

/-- Every batch row's 27 × 27 Gram matrix. -/
def gramAll (x : FVec Ideal S65536x128 .f32) (y : FVec Ideal S65536x26x128 .f32) : FVec Ideal S65536x27x27 .f32 :=
  Host.dotGeneral (F := Ideal) dot_S65536x27x128_S65536x27x128_S65536x27x27_2_2_1_1_0_0 none (combined x y) (combined x y)

/-- The reference's result: the Gram entries at the pairs an index table `T` names … -/
def gathered (T : IVec S351x2 32) (x : FVec Ideal S65536x128 .f32) (y : FVec Ideal S65536x26x128 .f32) :
    FVec Ideal S65536x351 .f32 :=
  Host.gather gather_S65536x27x27_S351x2_S65536x351_0_12_n_n_12_1_6553611 (gramAll x y) T

/-- … at the table the program computes. -/
def out (x : FVec Ideal S65536x128 .f32) (y : FVec Ideal S65536x26x128 .f32) : FVec Ideal S65536x351 .f32 :=
  gathered pairs x y

end Cert.ReferenceIdeal.RefTerm

end
-- ==== Proof.RefRun.lean ====
/-
  The reference's run read back.  Every weakly fair execution of the reference program terminates with its result
  buffer at the composed term of the two argument arrays — the Gram entries of every batch row gathered at the pairs
  of the strict upper triangle — and with the argument arrays unchanged.  The line of 138 operations is read one
  stretch at a time, each from arbitrary buffer contents: what the stretch leaves in its result buffer, as the stage
  of the composed term it computes from the buffers it reads, and which earlier results it passes through
  untouched; the stretches' facts, chained in the program's order, give the composed term.
-/
import proofs.«111080_j790273983046_2_alg».proof.Proof.RefPlain
import proofs.«111080_j790273983046_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Two arrays side by side, as a function of the two -/

/-- Two arrays laid side by side along an axis, the two as separate arguments (a concatenation's operands sit in a
    list beside a proof about the list's shapes, which hides them from a rewriting pass). -/
def pair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_pair {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = pair t a s₁ s₂ h x₁ x₂ := rfl

/-- The index table whose rows are the pairs (row, column). -/
def pairsOf (r c : IVec S351 32) : IVec S351x2 32 :=
  concatenate S351x2 1 [⟨S351x1, broadcastInDim S351x1 ![0] bcast_S351_S351x1_0 r⟩,
    ⟨S351x1, broadcastInDim S351x1 ![0] bcast_S351_S351x1_0 c⟩] concatenates_S351x1_S351x1_S351x2_d1

/-- The fold over two lines run one after the other is the second's fold over the first's. -/
theorem after_append {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append l₁ l₂]

/-- Unrolls a stretch's fold at a buffer: each operation's result at its own buffer is its function of its operands'
    contents, at any other buffer what was there; a concatenation's operands are reached through `pair`. -/
macro "unroll_fold" : tactic =>
  `(tactic| simp (disch := decide) only [after_cons, after_nil, nullary_result', unary_result', binary_result', ternary_result', reshape_result',
    nullary_result_ne', unary_result_ne', binary_result_ne', ternary_result_ne', reshape_result_ne', concatenate_pair])

/-! ## The stretches, each from arbitrary contents `W` -/

/-- The Gram stretch leaves every batch row's Gram matrix of the two argument arrays. -/
theorem gram_eq (W : Valuation τ sig (Elt Ideal)) :
    after (gramOpsP (F := Ideal)) W (main_v2 : DevRef τ sig)
      = RefTerm.gramAll (W (main_arg0 : DevRef τ sig)) (W (main_arg1 : DevRef τ sig)) := by
  unroll_fold
  rfl

/-- The table stretch leaves the pairs' flat positions, whatever the contents before it: it reads constants only. -/
theorem table_eq (W : Valuation τ sig (Elt Ideal)) :
    after (tableOpsP (F := Ideal)) W (main_v18 : DevRef τ sig) = RefTerm.flat := by
  unroll_fold
  rfl

theorem table_keep_gram (W : Valuation τ sig (Elt Ideal)) :
    after (tableOpsP (F := Ideal)) W (main_v2 : DevRef τ sig) = W (main_v2 : DevRef τ sig) := by
  after_results_simp

/-- The first quotient stretch leaves the floor quotient by 27 of what it finds at the flat positions' buffer. -/
theorem quotRow_eq (W : Valuation τ sig (Elt Ideal)) :
    after (quotRowOpsP (F := Ideal)) W (main_v19 : DevRef τ sig)
      = RefTerm.floorDiv (W (main_v18 : DevRef τ sig)) (constantI S_ 32 27#32) := by
  unroll_fold
  rfl

theorem quotRow_keep_gram (W : Valuation τ sig (Elt Ideal)) :
    after (quotRowOpsP (F := Ideal)) W (main_v2 : DevRef τ sig) = W (main_v2 : DevRef τ sig) := by
  after_results_simp

theorem quotRow_keep_flat (W : Valuation τ sig (Elt Ideal)) :
    after (quotRowOpsP (F := Ideal)) W (main_v18 : DevRef τ sig) = W (main_v18 : DevRef τ sig) := by
  after_results_simp

/-- The first remainder stretch leaves the floor remainder by 27 of what it finds at the quotient's buffer. -/
theorem remRow_eq (W : Valuation τ sig (Elt Ideal)) :
    after (remRowOpsP (F := Ideal)) W (main_v20 : DevRef τ sig)
      = RefTerm.floorRem (W (main_v19 : DevRef τ sig)) (constantI S_ 32 27#32) := by
  unroll_fold
  rfl

theorem remRow_keep_gram (W : Valuation τ sig (Elt Ideal)) :
    after (remRowOpsP (F := Ideal)) W (main_v2 : DevRef τ sig) = W (main_v2 : DevRef τ sig) := by
  after_results_simp

theorem remRow_keep_flat (W : Valuation τ sig (Elt Ideal)) :
    after (remRowOpsP (F := Ideal)) W (main_v18 : DevRef τ sig) = W (main_v18 : DevRef τ sig) := by
  after_results_simp

/-- The second quotient stretch leaves the floor quotient by 1 of what it finds at the flat positions' buffer. -/
theorem quotCol_eq (W : Valuation τ sig (Elt Ideal)) :
    after (quotColOpsP (F := Ideal)) W (main_v21 : DevRef τ sig)
      = RefTerm.floorDiv (W (main_v18 : DevRef τ sig)) (constantI S_ 32 1#32) := by
  unroll_fold
  rfl

theorem quotCol_keep_gram (W : Valuation τ sig (Elt Ideal)) :
    after (quotColOpsP (F := Ideal)) W (main_v2 : DevRef τ sig) = W (main_v2 : DevRef τ sig) := by
  after_results_simp

theorem quotCol_keep_rows (W : Valuation τ sig (Elt Ideal)) :
    after (quotColOpsP (F := Ideal)) W (main_v20 : DevRef τ sig) = W (main_v20 : DevRef τ sig) := by
  after_results_simp

/-- The second remainder stretch leaves the floor remainder by 27 of what it finds at the second quotient's buffer. -/
theorem remCol_eq (W : Valuation τ sig (Elt Ideal)) :
    after (remColOpsP (F := Ideal)) W (main_v22 : DevRef τ sig)
      = RefTerm.floorRem (W (main_v21 : DevRef τ sig)) (constantI S_ 32 27#32) := by
  unroll_fold
  rfl

theorem remCol_keep_gram (W : Valuation τ sig (Elt Ideal)) :
    after (remColOpsP (F := Ideal)) W (main_v2 : DevRef τ sig) = W (main_v2 : DevRef τ sig) := by
  after_results_simp

theorem remCol_keep_rows (W : Valuation τ sig (Elt Ideal)) :
    after (remColOpsP (F := Ideal)) W (main_v20 : DevRef τ sig) = W (main_v20 : DevRef τ sig) := by
  after_results_simp

/-- The last stretch gathers what it finds at the Gram buffer at the pairs made of what it finds at the two
    remainders' buffers, each wrapped into 27 places. -/
theorem gather_eq (W : Valuation τ sig (Elt Ideal)) :
    after (gatherOpsP (F := Ideal)) W (main_v36 : DevRef τ sig)
      = Host.gather gather_S65536x27x27_S351x2_S65536x351_0_12_n_n_12_1_6553611 (W (main_v2 : DevRef τ sig))
          (pairsOf (RefTerm.wrap27 (W (main_v20 : DevRef τ sig))) (RefTerm.wrap27 (W (main_v22 : DevRef τ sig)))) := by
  unroll_fold
  rfl

/-! ## The whole line -/

/-- The fold at the result buffer is the composed term of the contents at the two argument buffers. -/
theorem out_eq (V : Valuation τ sig (Elt Ideal)) :
    after (ops (F := Ideal)) V (main_v36 : DevRef τ sig)
      = RefTerm.out (V (main_arg0 : DevRef τ sig)) (V (main_arg1 : DevRef τ sig)) := by
  rw [ops_plain]
  simp only [after_append]
  rw [gather_eq, remCol_keep_gram, quotCol_keep_gram, remRow_keep_gram, quotRow_keep_gram, table_keep_gram, gram_eq,
    remCol_keep_rows, quotCol_keep_rows, remRow_eq, quotRow_eq, table_eq,
    remCol_eq, quotCol_eq, remRow_keep_flat, quotRow_keep_flat, table_eq]
  rfl

theorem arg0_eq (V : Valuation τ sig (Elt Ideal)) :
    after (ops (F := Ideal)) V (main_arg0 : DevRef τ sig) = V (main_arg0 : DevRef τ sig) := by
  rw [ops_plain]
  simp only [gramOpsP, tableOpsP, quotRowOpsP, remRowOpsP, quotColOpsP, remColOpsP, gatherOpsP, List.cons_append, List.nil_append]
  after_results_simp

theorem arg1_eq (V : Valuation τ sig (Elt Ideal)) :
    after (ops (F := Ideal)) V (main_arg1 : DevRef τ sig) = V (main_arg1 : DevRef τ sig) := by
  rw [ops_plain]
  simp only [gramOpsP, tableOpsP, quotRowOpsP, remRowOpsP, quotColOpsP, remColOpsP, gatherOpsP, List.cons_append, List.nil_append]
  after_results_simp

/-- On every device, from any memory with zero counters: every weakly fair execution of the reference terminates
    with its result at the composed term of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = Cert.ReferenceIdeal.RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out_eq _), (h c main_arg0).trans (arg0_eq _),
      (h c main_arg1).trans (arg1_eq _)⟩) (run_main (F := Ideal) m ρ)

end Cert.ReferenceIdeal.RefRun

end
-- ==== Proof.CombinedRows.lean ====
/- The 27 features of a batch row, read entry by entry.

   The reference puts the dense array, given a middle axis of extent one, in front of the sparse array along that
   middle axis.  Entry `(b, f, d)` of the result is therefore the dense array at `(b, d)` when `f = 0` — the one
   place of the inserted axis — and the sparse array at `(b, f - 1, d)` when `f ≥ 1`. -/
import proofs.«111080_j790273983046_2_alg».proof.Proof.RefTerm
import proofs.«111080_j790273983046_2_alg».proof.Proof.Spec
import Idealize.ShloMosaic.Lib.Pipeline.Value

noncomputable section

namespace Cert.ReferenceIdeal.CombinedRows

open Cert.ReferenceIdeal Cert.ReferenceIdeal.Gen Idealize.ShloMosaic Idealize.ShloMosaic.ValueIdx

/-- The dense array with the middle axis inserted, at `(b, 0, d)`, is the dense array at `(b, d)`. -/
theorem dense_apply (x : FVec Ideal S65536x128 .f32) (b : Fin 65536) (d : Fin 128) :
    broadcastInDim S65536x1x128 ![0, 2] Facts₀.bcast_S65536x128_S65536x1x128_0_2 x (ix3 b (0 : Fin 1) d) = x (ix2 b d) :=
  broadcastInDim_apply ![0, 2] _ x (ix3 b (0 : Fin 1) d) (ix2 b d) (fun a => by
    match a with
    | ⟨0, _⟩ => rfl
    | ⟨1, _⟩ => rfl)

/-- Feature `f`, lane `d` of batch row `b`: the dense row for `f = 0`, sparse feature `f - 1` otherwise. -/
theorem combined_apply (x : FVec Ideal S65536x128 .f32) (y : FVec Ideal S65536x26x128 .f32)
    (b : Fin 65536) (f : Fin 27) (d : Fin 128) :
    RefTerm.combined x y (ix3 b f d) = Cert.Spec.comb x y b f d := by
  unfold RefTerm.combined Cert.Spec.comb
  by_cases h : f.val = 0
  · rw [dif_pos h]
    refine (concatenate_pair_apply_left (t := S65536x27x128) (s₁ := S65536x1x128) (s₂ := S65536x26x128) (1 : Fin 3)
      _ y _ (ix3 b f d) rfl (ix3 b (0 : Fin 1) d) (fun c => by
        match c with
        | ⟨0, _⟩ => rfl
        | ⟨1, _⟩ => exact h.symm
        | ⟨2, _⟩ => rfl)).trans ?_
    exact dense_apply x b d
  · rw [dif_neg h]
    exact concatenate_pair_apply_right (t := S65536x27x128) (s₁ := S65536x1x128) (s₂ := S65536x26x128) (1 : Fin 3)
      _ y _ (ix3 b f d) rfl rfl (ix3 b (⟨f.val - 1, by have := f.isLt; omega⟩ : Fin 26) d)
      (fun c hc => by
        match c with
        | ⟨0, _⟩ => rfl
        | ⟨1, _⟩ => exact absurd rfl hc
        | ⟨2, _⟩ => rfl)
      (by show (f.val - 1) + 1 = f.val; omega)

end Cert.ReferenceIdeal.CombinedRows

end
-- ==== Proof.LibDotBatchedLast.lean ====
/- A batched product that contracts the last axis of both operands.

   A `dot_general` over an `[G, m, k]` and an `[G, n, k]` array with batch axes 0 and 0 and contracting axes 2 and 2
   (the einsum `gmk,gnk->gmn`) multiplies, for every member `g` of the batch, the m × k matrix by the transpose of
   the n × k matrix.  At the exact extended reals its entry `(g, a, b)` is the sum over the contracted coordinate `c`
   of the products of the left operand at `(g, a, c)` and the right operand at `(g, b, c)`.  Any extents, any float
   formats, any precision.  (With both operands the same array this is every member's Gram matrix.) -/
import Idealize.ShloMosaic.Lib.ValueIdx
import Idealize.ShloMosaic.PureOps.Ideal.Laws

noncomputable section

open scoped BigOperators

namespace Cert.LibDotBatchedLast

open Idealize.ShloMosaic Idealize.ShloMosaic.ValueIdx

/-- The product read at `(g, a, b)`: the sum over `c` of left `(g, a, c)` times right `(g, b, c)`.  `w` is the
    dimension numbers' well-formedness, which a program states. -/
theorem dotGeneral_batched_last_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (F := Ideal) (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  -- the contraction index built from `c` has `c` as its one coordinate
  have c3 := contrEquiv1_symm_val
    (⟨[2], [2], [1], [1], [0], [0], w⟩ : DotDims ⟨3, ![G, m, k]⟩ ⟨3, ![G, n, k]⟩ ⟨3, ![G, m, n]⟩) k rfl rfl c
  -- the left operand is read at the batch member, the result's row and the contracted coordinate
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the right operand at the batch member, the result's column and the contracted coordinate
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.LibDotBatchedLast

end
-- ==== Proof.GramRows.lean ====
/- Every batch row's Gram matrix, read entry by entry.

   The reference multiplies the array of features by itself with the batch axis kept and the lanes contracted.  Entry
   `(b, f, g)` of the product is the sum over the 128 lanes of feature `f` times feature `g` of batch row `b`: the
   Gram entry of the two features. -/
import proofs.«111080_j790273983046_2_alg».proof.Proof.CombinedRows
import proofs.«111080_j790273983046_2_alg».proof.Proof.LibDotBatchedLast

noncomputable section

open scoped BigOperators

namespace Cert.ReferenceIdeal.GramRows

open Cert.ReferenceIdeal Cert.ReferenceIdeal.Gen Idealize.ShloMosaic Idealize.ShloMosaic.ValueIdx

/-- The product at `(b, f, g)` is the Gram entry of features `f` and `g` of batch row `b`. -/
theorem gramAll_apply (x : FVec Ideal S65536x128 .f32) (y : FVec Ideal S65536x26x128 .f32)
    (b : Fin 65536) (f g : Fin 27) :
    RefTerm.gramAll x y (ix3 b f g) = Cert.Spec.gram x y b f g := by
  unfold RefTerm.gramAll Cert.Spec.gram
  refine (Cert.LibDotBatchedLast.dotGeneral_batched_last_apply (G := 65536) (m := 27) (n := 27) (k := 128)
    Facts₀.dot_S65536x27x128_S65536x27x128_S65536x27x27_2_2_1_1_0_0_wf none
    (RefTerm.combined x y) (RefTerm.combined x y) b f g).trans ?_
  refine Finset.sum_congr rfl fun d _ => ?_
  rw [CombinedRows.combined_apply x y b f d, CombinedRows.combined_apply x y b g d]

end Cert.ReferenceIdeal.GramRows

end
-- ==== Proof.LibGatherPairs.lean ====
/- A gather at index pairs for the last two axes of a rank-3 array.

   A `stablehlo.gather` with offset_dims [0], collapsed_slice_dims [1, 2], start_index_map [1, 2], index_vector_dim 1
   and slice_sizes [A, 1, 1] takes, for each row `e` of an `[E, 2]` array of start indices, the whole first axis of
   an `[A, N, M]` operand at the position the pair names on the other two axes.  Result entry `(b, e)` is therefore
   the operand at `(b, p, q)` with `p`, `q` the two components of pair `e`, each read as a signed integer and
   clamped into its axis.  Any extents `A`, `N`, `M`, `E`, any index width, any element type.  (With the pairs
   `(i, i)` this is the diagonal of each matrix of a stack, which is what `jnp.diagonal` lowers to.) -/
import Idealize.ShloMosaic.Lib.Pipeline.Value
import Idealize.ShloMosaic.Lib.ValueIdx
import Idealize.ShloMosaic.Lib.DynamicIndex

noncomputable section

namespace Cert.LibGatherPairs

open Idealize.ShloMosaic Idealize.ShloMosaic.ValueIdx

section Pairs
variable {α : Type}

/-- The dimension numbers: operand `[A, N, M]`, start indices `[E, 2]` (row `e` a pair for axes 1 and 2), result
    `[A, E]`; the first axis is kept whole (slice size `A`), the other two collapsed (slice size 1). -/
abbrev pairDims (A N M E : Nat)
    (wf : GatherDims.WF ⟨3, ![A, N, M]⟩ ⟨2, ![E, 2]⟩ ⟨2, ![A, E]⟩ [0] [1, 2] [] [1, 2] [] 1 ![A, 1, 1]) :
    GatherDims ⟨3, ![A, N, M]⟩ ⟨2, ![E, 2]⟩ ⟨2, ![A, E]⟩ where
  offsetDims := [0]
  collapsedSliceDims := [1, 2]
  operandBatchingDims := []
  startIndicesBatchingDims := []
  startIndexMap := [1, 2]
  indexVectorDim := 1
  sliceSizes := ![A, 1, 1]
  wf := wf

/-- The position a start index names on an axis of extent `N`: the word read signed, clamped into `[0, N - 1]`. -/
def clampTo {w : Nat} (N : Nat) (hN : 0 < N) (b : BitVec w) : Fin N := ⟨min b.toInt.toNat (N - 1), by omega⟩

/-- An axis of a rank-3 shape is its first, second or third. -/
private theorem axis_cases3 (a : Fin 3) : a = 0 ∨ a = 1 ∨ a = 2 := by fin_cases a <;> simp
private theorem zero_not_mem : (0 : Fin 3) ∉ ([1, 2] : List (Fin 3)) := by decide
private theorem one_mem : (1 : Fin 3) ∈ ([1, 2] : List (Fin 3)) := by decide
private theorem two_mem : (2 : Fin 3) ∈ ([1, 2] : List (Fin 3)) := by decide

/-- The gather read at `(b, e)`: the operand at `b` and the two positions start index `e` names. -/
theorem gather_pairs_apply {A N M E w : Nat} (hN : 0 < N) (hM : 0 < M)
    (wf : GatherDims.WF ⟨3, ![A, N, M]⟩ ⟨2, ![E, 2]⟩ ⟨2, ![A, E]⟩ [0] [1, 2] [] [1, 2] [] 1 ![A, 1, 1])
    (x : (⟨3, ![A, N, M]⟩ : Shape).Idx → α) (idx : IVec ⟨2, ![E, 2]⟩ w) (b : Fin A) (e : Fin E) :
    Host.gather (pairDims A N M E wf) x idx (ix2 b e)
      = x (ix3 b (clampTo N hN (idx (ix2 e (0 : Fin 2)))) (clampTo M hM (idx (ix2 e (1 : Fin 2))))) := by
  unfold Host.gather
  congr 1
  funext a
  refine Fin.ext ?_
  show (pairDims A N M E wf).start (ix2 b e) idx a + (pairDims A N M E wf).batchCoord (ix2 b e) a
      + (pairDims A N M E wf).offCoord (ix2 b e) a = _
  rw [GatherDims.batchCoord_eq_zero _ _ _ List.not_mem_nil]
  rcases axis_cases3 a with rfl | rfl | rfl
  · -- the kept axis: no start index, the result's first coordinate as the offset
    unfold GatherDims.start
    rw [dif_neg (show (0 : Fin 3) ∉ (pairDims A N M E wf).startIndexMap from zero_not_mem)]
    simp only [Nat.zero_add, Nat.add_zero]
    have hk : (0 : Fin 3) ∈ (pairDims A N M E wf).sKept :=
      ((pairDims A N M E wf).mem_sKept 0).mpr ⟨zero_not_mem, List.not_mem_nil⟩
    unfold GatherDims.offCoord
    rw [dif_pos hk]
    rfl
  · -- the first collapsed axis: the pair's first component, no offset
    rw [GatherDims.offCoord_eq_zero _ _ _ (fun h => ((GatherDims.mem_sKept _ _).mp h).1 one_mem)]
    simp only [Nat.add_zero]
    unfold GatherDims.start
    rw [dif_pos (show (1 : Fin 3) ∈ (pairDims A N M E wf).startIndexMap from one_mem)]
    have hsi : (pairDims A N M E wf).siIdx (ix2 b e) ⟨List.idxOf (1 : Fin 3) (pairDims A N M E wf).startIndexMap,
        List.idxOf_lt_length_iff.2 one_mem⟩ = ix2 e (0 : Fin 2) := by
      funext c; refine Fin.ext ?_
      match c with
      | ⟨0, _⟩ => rfl
      | ⟨1, _⟩ => rfl
    rw [hsi]
    rfl
  · -- the second collapsed axis: the pair's second component
    rw [GatherDims.offCoord_eq_zero _ _ _ (fun h => ((GatherDims.mem_sKept _ _).mp h).1 two_mem)]
    simp only [Nat.add_zero]
    unfold GatherDims.start
    rw [dif_pos (show (2 : Fin 3) ∈ (pairDims A N M E wf).startIndexMap from two_mem)]
    have hsi : (pairDims A N M E wf).siIdx (ix2 b e) ⟨List.idxOf (2 : Fin 3) (pairDims A N M E wf).startIndexMap,
        List.idxOf_lt_length_iff.2 two_mem⟩ = ix2 e (1 : Fin 2) := by
      funext c; refine Fin.ext ?_
      match c with
      | ⟨0, _⟩ => rfl
      | ⟨1, _⟩ => rfl
    rw [hsi]
    rfl

end Pairs

end Cert.LibGatherPairs

end
-- ==== Proof.PairWords.lean ====
/- The index pairs as 32-bit words.

   A gather reads each component of a start index as a signed integer and clamps it into its axis.  The
   components here are the words of numbers below 27 on axes of extent 27: such a word is far below 2 ^ 31, so
   its signed reading is the number itself, and the number is already inside the axis, so the clamp leaves it
   alone.  Hence the position the word of a pair's row (column) names is that row (column). -/
import proofs.«111080_j790273983046_2_alg».proof.Proof.LibGatherPairs
import proofs.«111080_j790273983046_2_alg».proof.Proof.Spec

noncomputable section

namespace Cert.ReferenceIdeal.PairWords

open Idealize.ShloMosaic Cert.LibGatherPairs

/-- The word of a number below 27, read signed, is the number. -/
theorem toNat_toInt_ofNat_small : ∀ n : Fin 27, (BitVec.ofNat 32 n.val).toInt.toNat = n.val := by decide

/-- The position the word of a number `n < 27` names on an axis of extent 27 is `n`. -/
theorem clampTo_ofNat (n : Nat) (h : n < 27) :
    clampTo 27 (by decide) (BitVec.ofNat 32 n) = (⟨n, h⟩ : Fin 27) := by
  refine Fin.ext ?_
  have e : (BitVec.ofNat 32 n).toInt.toNat = n := toNat_toInt_ofNat_small ⟨n, h⟩
  show min (BitVec.ofNat 32 n).toInt.toNat (27 - 1) = n
  rw [e]
  omega

/-- The word of a result column's triangle row names that row … -/
theorem clampTo_pairRow (e : Fin 351) :
    clampTo 27 (by decide) (BitVec.ofNat 32 (Cert.Spec.pairRow e.val)) = Cert.Spec.rowF e :=
  clampTo_ofNat _ (Cert.Spec.pairRow_lt e)

/-- … and the word of its triangle column names that column. -/
theorem clampTo_pairCol (e : Fin 351) :
    clampTo 27 (by decide) (BitVec.ofNat 32 (Cert.Spec.pairCol e.val)) = Cert.Spec.colF e :=
  clampTo_ofNat _ (Cert.Spec.pairCol_lt e)

end Cert.ReferenceIdeal.PairWords

end
-- ==== Proof.RefGather.lean ====
/- The reference's result, for any table of the right index pairs.

   The reference gathers every batch row's Gram matrix at a 351 × 2 table of index pairs, keeping the batch axis
   whole: result entry `(b, e)` is the Gram matrix of row `b` at the position the pair in row `e` of the table
   names.  When row `e` of the table holds the words of the triangle row and the triangle column of result column
   `e`, that position is `(pairRow e, pairCol e)`, and the entry is the Gram entry of those two features: the
   specification's value at `(b, e)`. -/
import proofs.«111080_j790273983046_2_alg».proof.Proof.GramRows
import proofs.«111080_j790273983046_2_alg».proof.Proof.PairWords

noncomputable section

namespace Cert.ReferenceIdeal.RefGather

open Cert.ReferenceIdeal Cert.ReferenceIdeal.Gen Idealize.ShloMosaic Idealize.ShloMosaic.ValueIdx

/-- The gather of the Gram matrices at a table whose row `e` is the pair `(pairRow e, pairCol e)` is the
    specification. -/
theorem gathered_eq (T : IVec S351x2 32)
    (hT : ∀ e : Fin 351, T (ix2 e (0 : Fin 2)) = BitVec.ofNat 32 (Cert.Spec.pairRow e.val)
      ∧ T (ix2 e (1 : Fin 2)) = BitVec.ofNat 32 (Cert.Spec.pairCol e.val))
    (x : FVec Ideal S65536x128 .f32) (y : FVec Ideal S65536x26x128 .f32) :
    Cert.ReferenceIdeal.RefTerm.gathered T x y = Cert.Spec.G x y := by
  funext j
  obtain ⟨b, e, rfl⟩ : ∃ (b : Fin 65536) (e : Fin 351), j = ix2 b e := ⟨j 0, j 1, eq_ix2 j⟩
  refine Eq.trans ?_ (Cert.Spec.G_apply x y b e).symm
  unfold RefTerm.gathered
  -- the gather at (b, e): the Gram matrix of row b at the two positions the pair in row e names
  refine (Cert.LibGatherPairs.gather_pairs_apply (A := 65536) (N := 27) (M := 27) (E := 351) (by decide) (by decide)
    Facts₀.gather_S65536x27x27_S351x2_S65536x351_0_12_n_n_12_1_6553611_wf (RefTerm.gramAll x y) T b e).trans ?_
  -- the pair's two words name the triangle row and the triangle column
  rw [(hT e).1, (hT e).2, PairWords.clampTo_pairRow e, PairWords.clampTo_pairCol e]
  exact GramRows.gramAll_apply x y b (Cert.Spec.rowF e) (Cert.Spec.colF e)

end Cert.ReferenceIdeal.RefGather

end
-- ==== Proof.TriCount.lean ====
/-
  Counting the strict upper triangle of a 27 × 27 matrix in row-major order, on the natural numbers.

  Flat position `q = 27 r + c` belongs to the triangle when `r < c`.  `cnt k` is the number of triangle positions
  among `0 … k - 1`.  The `e`-th triangle position (counting from zero) is `27 · pairRow e + pairCol e`: it is in the
  triangle and exactly `e` triangle positions come before it.  Hence, for `p < 729`, at most `e` triangle positions lie
  among `0 … p` exactly when `p` is before that position.
-/
import proofs.«111080_j790273983046_2_alg».proof.Proof.Spec

namespace Cert.TriCount

open Cert.Spec

/-- One at a triangle position, zero elsewhere. -/
def tri (q : Nat) : Nat := if q / 27 < q % 27 then 1 else 0

/-- The number of triangle positions among `0 … k - 1`. -/
def cnt (k : Nat) : Nat := ((List.range k).map tri).sum

theorem cnt_succ (k : Nat) : cnt (k + 1) = cnt k + tri k := by
  unfold cnt
  rw [List.range_succ, List.map_append, List.sum_append]
  simp

theorem cnt_mono {a b : Nat} (h : a ≤ b) : cnt a ≤ cnt b := by
  induction b, h using Nat.le_induction with
  | base => exact Nat.le_refl _
  | succ b _ ih => rw [cnt_succ]; omega

theorem tri_le_one (q : Nat) : tri q ≤ 1 := by unfold tri; split <;> omega

theorem cnt_le (k : Nat) : cnt k ≤ k := by
  induction k with
  | zero => simp [cnt]
  | succ k ih => rw [cnt_succ]; have := tri_le_one k; omega

/-- The flat position of the `e`-th triangle position. -/
def place (e : Nat) : Nat := 27 * pairRow e + pairCol e

/-- It is a triangle position below 729 with exactly `e` triangle positions before it. -/
theorem place_facts : ∀ e : Fin 351, place e.val < 729 ∧ tri (place e.val) = 1 ∧ cnt (place e.val) = e.val := by decide +kernel

/-- Its row and column are its quotient and remainder by 27. -/
theorem place_divmod : ∀ e : Fin 351, place e.val / 27 = pairRow e.val ∧ place e.val % 27 = pairCol e.val := by decide +kernel

/-- At most `e` triangle positions lie among `0 … p` exactly when `p` comes before the `e`-th one. -/
theorem cnt_le_iff (e : Fin 351) (p : Nat) : cnt (p + 1) ≤ e.val ↔ p < place e.val := by
  obtain ⟨_, ht, hc⟩ := place_facts e
  constructor
  · intro h
    by_contra hge
    have : cnt (place e.val + 1) ≤ cnt (p + 1) := cnt_mono (by omega)
    rw [cnt_succ, ht, hc] at this
    omega
  · intro h
    have : cnt (p + 1) ≤ cnt (place e.val) := cnt_mono (by omega)
    omega

end Cert.TriCount
-- ==== Proof.PairTable.lean ====
/- The table of index pairs, read off the flat triangle positions.

   The reference turns the flat position `q = 27 r + c` of each triangle entry into the pair `(r, c)`: the row is
   the floor quotient of `q` by 27, reduced modulo 27, and the column is `q` reduced modulo 27, each then read as an
   index into 27 places (a negative one counted from the end).  The program computes the floor quotient and the
   floor remainder from the truncating ones by a correction of one when the signs differ and the remainder is not
   zero.  Every one of these operations acts word by word, so entry `e` of the rows (columns) is one function of the
   single word `flat e`.  On the word of a number `v < 729` no correction applies: the row function gives the word
   of `v / 27` and the column function the word of `v % 27` — a finite check over the 729 words.  The table is the
   two columns side by side. -/
import proofs.«111080_j790273983046_2_alg».proof.Proof.RefTerm
import proofs.«111080_j790273983046_2_alg».proof.Proof.TriCount
import Idealize.ShloMosaic.Lib.Pipeline.Value

noncomputable section

namespace Cert.ReferenceIdeal.PairTable

open Cert.ReferenceIdeal Idealize.ShloMosaic Idealize.ShloMosaic.ValueIdx

/-! ## The word functions -/

/-- The sign of a word read as a two's-complement integer: `-1`, `0` or `1`. -/
def sgnW (a : BitVec 32) : BitVec 32 := if a = 0 then 0 else if a.msb then -1 else 1

/-- The quotient rounded toward minus infinity: the truncating quotient, one less when the signs differ and the
    remainder is not zero. -/
def floorDivW (a d : BitVec 32) : BitVec 32 :=
  Scalar.select (IntOp.andi (IntOp.cmpi .ne (sgnW a) (sgnW d)) (IntOp.cmpi .ne (IntOp.remsi .host a d) 0#32))
    (IntOp.subi (IntOp.divsi .host a d) 1#32) (IntOp.divsi .host a d)

/-- The divisor with zero replaced by one. -/
def safeDivW (d : BitVec 32) : BitVec 32 := Scalar.select (IntOp.cmpi .eq d 0#32) 1#32 d

/-- The remainder with the divisor's sign: the truncating remainder, the divisor added when their signs differ and
    the remainder is not zero. -/
def floorRemW (a d : BitVec 32) : BitVec 32 :=
  Scalar.select (IntOp.andi (IntOp.cmpi .ne (IntOp.cmpi .slt (IntOp.remsi .host a (safeDivW d)) 0#32)
        (IntOp.cmpi .slt (safeDivW d) 0#32))
      (IntOp.cmpi .ne (IntOp.remsi .host a (safeDivW d)) 0#32))
    (IntOp.addi (IntOp.remsi .host a (safeDivW d)) (safeDivW d)) (IntOp.remsi .host a (safeDivW d))

/-- An index into 27 places, a negative one counted from the end. -/
def wrap27W (a : BitVec 32) : BitVec 32 := Scalar.select (IntOp.cmpi .slt a 0#32) (IntOp.addi a 27#32) a

/-- The triangle row and the triangle column of a flat position, as the program computes them. -/
def rowW (v : BitVec 32) : BitVec 32 := wrap27W (floorRemW (floorDivW v 27#32) 27#32)
def colW (v : BitVec 32) : BitVec 32 := wrap27W (floorRemW (floorDivW v 1#32) 27#32)

/-- On the word of a number below 729 they are the words of its quotient and its remainder by 27. -/
theorem rowW_colW_ofNat : ∀ v : Fin 729, rowW (BitVec.ofNat 32 v.val) = BitVec.ofNat 32 (v.val / 27)
    ∧ colW (BitVec.ofNat 32 v.val) = BitVec.ofNat 32 (v.val % 27) := by decide +kernel

/-! ## The program's stages, entry by entry, over any array of flat positions -/

theorem floorDiv_apply (a : IVec S351 32) (c : BitVec 32) (i : S351.Idx) :
    RefTerm.floorDiv a (constantI S_ 32 c) i = floorDivW (a i) c := rfl

theorem floorRem_apply (a : IVec S351 32) (c : BitVec 32) (i : S351.Idx) :
    RefTerm.floorRem a (constantI S_ 32 c) i = floorRemW (a i) c := rfl

theorem wrap27_apply (a : IVec S351 32) (i : S351.Idx) : RefTerm.wrap27 a i = wrap27W (a i) := rfl

/-- Entry `i` of the rows and of the columns is the row and the column function of `flat i`. -/
theorem rows_apply (i : S351.Idx) : RefTerm.rows i = rowW (RefTerm.flat i) := by
  unfold RefTerm.rows rowW
  exact (wrap27_apply _ i).trans (congrArg wrap27W ((floorRem_apply _ 27#32 i).trans
    (congrArg (fun w => floorRemW w 27#32) (floorDiv_apply RefTerm.flat 27#32 i))))

theorem cols_apply (i : S351.Idx) : RefTerm.cols i = colW (RefTerm.flat i) := by
  unfold RefTerm.cols colW
  exact (wrap27_apply _ i).trans (congrArg wrap27W ((floorRem_apply _ 27#32 i).trans
    (congrArg (fun w => floorRemW w 27#32) (floorDiv_apply RefTerm.flat 1#32 i))))

/-! ## The table: the rows in its first column, the columns in its second -/

/-- A 351-array as a 351 × 1 column, at `(e, 0)`, is the array at `e`. -/
theorem column_apply (a : IVec S351 32) (e : Fin 351) :
    broadcastInDim S351x1 ![0] Facts₀.bcast_S351_S351x1_0 a (ix2 e (0 : Fin 1)) = a (ix1 e) :=
  broadcastInDim_apply ![0] _ a (ix2 e (0 : Fin 1)) (ix1 e) (fun c => by
    match c with
    | ⟨0, _⟩ => rfl)

theorem pairs_apply_row (e : Fin 351) : RefTerm.pairs (ix2 e (0 : Fin 2)) = RefTerm.rows (ix1 e) := by
  unfold RefTerm.pairs
  refine (concatenate_pair_apply_left (t := S351x2) (s₁ := S351x1) (s₂ := S351x1) (1 : Fin 2) _ _ _
    (ix2 e (0 : Fin 2)) rfl (ix2 e (0 : Fin 1)) (fun c => by
      match c with
      | ⟨0, _⟩ => rfl
      | ⟨1, _⟩ => rfl)).trans ?_
  exact column_apply RefTerm.rows e

theorem pairs_apply_col (e : Fin 351) : RefTerm.pairs (ix2 e (1 : Fin 2)) = RefTerm.cols (ix1 e) := by
  unfold RefTerm.pairs
  refine (concatenate_pair_apply_right (t := S351x2) (s₁ := S351x1) (s₂ := S351x1) (1 : Fin 2) _ _ _
    (ix2 e (1 : Fin 2)) rfl rfl (ix2 e (0 : Fin 1)) (fun c hc => by
      match c with
      | ⟨0, _⟩ => rfl
      | ⟨1, _⟩ => exact absurd rfl hc) (by show 0 + 1 = 1; rfl)).trans ?_
  exact column_apply RefTerm.cols e

/-- When `flat e` is the word of the flat position of the `e`-th triangle entry, row `e` of the table holds the
    words of that entry's triangle row and triangle column. -/
theorem pairs_of_flat (hflat : ∀ e : Fin 351, Cert.ReferenceIdeal.RefTerm.flat (ix1 e) = BitVec.ofNat 32 (Cert.TriCount.place e.val)) :
    ∀ e : Fin 351, Cert.ReferenceIdeal.RefTerm.pairs (ix2 e (0 : Fin 2)) = BitVec.ofNat 32 (Cert.Spec.pairRow e.val)
      ∧ Cert.ReferenceIdeal.RefTerm.pairs (ix2 e (1 : Fin 2)) = BitVec.ofNat 32 (Cert.Spec.pairCol e.val) := by
  intro e
  obtain ⟨hlt, _, _⟩ := Cert.TriCount.place_facts e
  obtain ⟨hq, hr⟩ := Cert.TriCount.place_divmod e
  have hw : rowW (BitVec.ofNat 32 (Cert.TriCount.place e.val)) = BitVec.ofNat 32 (Cert.TriCount.place e.val / 27)
      ∧ colW (BitVec.ofNat 32 (Cert.TriCount.place e.val)) = BitVec.ofNat 32 (Cert.TriCount.place e.val % 27) :=
    rowW_colW_ofNat ⟨Cert.TriCount.place e.val, hlt⟩
  rw [hq, hr] at hw
  constructor
  · rw [pairs_apply_row e, rows_apply (ix1 e), hflat e]
    exact hw.1
  · rw [pairs_apply_col e, cols_apply (ix1 e), hflat e]
    exact hw.2

end Cert.ReferenceIdeal.PairTable

end
-- ==== Proof.LibPrefixSum.lean ====
/- A running sum computed as a sum over a padded window.

   The host's windowed reduction with a window as long as the array, stride one and `n - 1` padding places in
   front adds up, at position `p`, the window's `n` places `p - (n - 1) … p` of the padded array; the places before
   the array hold the initial value zero, so what is left is the sum of the array's entries `0 … p`: the running
   sum (what `jnp.cumsum` of an integer vector lowers to).  Any length `n`, any word width. -/
import Idealize.ShloMosaic.PureOps
import Idealize.ShloMosaic.Lib.ValueIdx
import Mathlib.Algebra.BigOperators.Fin
import Mathlib.Algebra.BigOperators.Intervals
import Mathlib.Data.BitVec

noncomputable section

open scoped BigOperators

namespace Cert.LibPrefixSum

open Idealize.ShloMosaic Idealize.ShloMosaic.ValueIdx

/-- A left fold of word addition is the start plus the sum of the list. -/
theorem foldl_addi_eq {w : Nat} {ι : Type} (g : ι → BitVec w) (L : List ι) (v : BitVec w) :
    L.foldl (fun r k => IntOp.addi r (g k)) v = v + (L.map g).sum := by
  induction L generalizing v with
  | nil => simp
  | cons a L ih =>
    rw [List.foldl_cons, ih, List.map_cons, List.sum_cons]
    show v + g a + _ = _
    exact BitVec.add_assoc _ _ _

/-- A vector of length `n` read at a natural number: the entry, or zero past the end. -/
def at0 {w n : Nat} (x : IVec ⟨1, ![n]⟩ w) (i : Nat) : BitVec w := if hi : i < n then x (ix1 ⟨i, hi⟩) else 0

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- The windowed sum's term at window place `k` of output position `j`: the array's entry `j + k - (n - 1)` when
    that place is inside the array, the initial value otherwise. -/
theorem window_term {w n : Nat} (l : Nat) (hl : l + 1 = n) (x : IVec ⟨1, ![n]⟩ w) (v : BitVec w) (j k : Nat) (hj : j < n) (hk : k < n)
    (pos : Fin 1 → Nat) (hpos : ∀ a, pos a = j + k) :
    (if hin : ∀ a : Fin 1, (![l] : Fin 1 → Nat) a ≤ pos a ∧ pos a - (![l] : Fin 1 → Nat) a < (⟨1, ![n]⟩ : Shape).size a then
        x (fun a => ⟨pos a - (![l] : Fin 1 → Nat) a, (hin a).2⟩) else v)
      = if l ≤ j + k then at0 x (j + k - l) else v := by
  by_cases hc : l ≤ j + k
  · have hin : ∀ a : Fin 1, (![l] : Fin 1 → Nat) a ≤ pos a ∧ pos a - (![l] : Fin 1 → Nat) a < (⟨1, ![n]⟩ : Shape).size a := by
      intro a
      have ha : a = 0 := Subsingleton.elim _ _
      subst ha
      rw [hpos]
      show l ≤ j + k ∧ j + k - l < n
      omega
    rw [dif_pos hin, if_pos hc]
    have hlt : j + k - l < n := by omega
    unfold at0
    rw [dif_pos hlt]
    refine congrArg x (funext fun a => Fin.ext ?_)
    have ha : a = 0 := Subsingleton.elim _ _
    subst ha
    show pos 0 - l = j + k - l
    rw [hpos]
  · rw [if_neg hc, dif_neg]
    intro hin
    have := (hin 0).1
    rw [hpos] at this
    exact hc this

/-- The sum over the window's places is the sum of the first `j + 1` entries: the places before the array add the
    initial value zero, the others are the entries `0 … j` in order. -/
theorem sum_window {w n : Nat} (l : Nat) (hl : l + 1 = n) (X : Nat → BitVec w) (j : Nat) (hj : j < n) :
    ∑ k ∈ Finset.range n, (if l ≤ j + k then X (j + k - l) else 0) = ∑ i ∈ Finset.range (j + 1), X i := by
  have ha : l - j ≤ n := by omega
  rw [Finset.range_eq_Ico, ← Finset.sum_Ico_consecutive _ (Nat.zero_le (l - j)) ha]
  have h0 : ∑ k ∈ Finset.Ico 0 (l - j), (if l ≤ j + k then X (j + k - l) else 0) = 0 := by
    refine Finset.sum_eq_zero fun k hk => ?_
    have := (Finset.mem_Ico.mp hk).2
    rw [if_neg (by omega)]
  rw [h0, zero_add, Finset.sum_Ico_eq_sum_range]
  have hn : n - (l - j) = j + 1 := by omega
  rw [hn]
  refine Finset.sum_congr rfl fun i hi => ?_
  have := Finset.mem_range.mp hi
  rw [if_pos (by omega)]
  congr 1
  omega

/-- THE RUNNING SUM: the windowed sum with window `n`, stride one, `l = n - 1` places of padding in front and the
    initial value zero, read at position `p`, is the sum of the entries `0 … p`. -/
theorem cumsum_apply {w n : Nat} (l : Nat) (hl : l + 1 = n) (x : IVec ⟨1, ![n]⟩ w)
    (init : (⟨0, ![]⟩ : Shape).Idx → BitVec w) (hinit : ∀ i, init i = 0)
    (h : (⟨1, ![n]⟩ : Shape).ReduceWindows (![n] : Fin 1 → Nat) ![1] ![l] ![0] ⟨1, ![n]⟩)
    (hu : 0 < (⟨0, ![]⟩ : Shape).numel) (p : Fin n) :
    Host.reduceWindow IntOp.addi ![n] ![1] ![l] ![0] x init h hu (ix1 p)
      = ∑ i ∈ Finset.range (p.val + 1), at0 x i := by
  unfold Host.reduceWindow
  dsimp only
  rw [hinit, foldl_addi_eq, zero_add, ← Fin.sum_univ_def]
  rw [← Equiv.sum_comp (⟨1, ![n]⟩ : Shape).rowMajor]
  simp only [Equiv.symm_apply_apply]
  rw [← Equiv.sum_comp (idxEquiv1 (n := n)).symm]
  refine (Finset.sum_congr rfl fun a _ => window_term l hl x 0 p.val a.val p.isLt a.isLt _ (fun a' => ?_)).trans ?_
  · have ha : a' = 0 := Subsingleton.elim _ _
    subst ha
    show p.val * 1 + a.val = _
    omega
  rw [Fin.sum_univ_eq_sum_range (fun k => if l ≤ p.val + k then at0 x (p.val + k - l) else 0) n]
  exact sum_window l hl (at0 x) p.val p.isLt

end Cert.LibPrefixSum

end
-- ==== Proof.TriMask.lean ====
/-
  The reference's first stages read at an index: the triangular mask, its flattening to words, and its running count.

  The mask is one at `(r, c)` exactly when `r < c`: the program starts from ones, writes zero where the row number
  is at least the column number, and asks where the result differs from zero; one and zero are different extended
  reals.  Flattened row by row, position `q` of the 729 words is the mask at `(q / 27, q % 27)`, which is
  `TriCount.tri q`; so the running count at position `p` is the word of `TriCount.cnt (p + 1)`.
-/
import proofs.«111080_j790273983046_2_alg».proof.Proof.RefTerm
import proofs.«111080_j790273983046_2_alg».proof.Proof.TriCount
import proofs.«111080_j790273983046_2_alg».proof.Proof.LibPrefixSum
import Idealize.ShloMosaic.Lib.Pipeline.Value
import Idealize.ShloMosaic.PureOps.Ideal.Laws

noncomputable section

open scoped BigOperators

namespace Cert.ReferenceIdeal.TriMask

open Cert.ReferenceIdeal Idealize.ShloMosaic Idealize.ShloMosaic.ValueIdx Cert.TriCount

/-- The word `0x3F800000` is the number one. -/
theorem one_f32 : Ideal.ofBits .f32 0x3F800000#32 = 1 := by
  simp [Ideal.ofBits, Ideal.ieee, -EReal.coe_mul]; norm_num

/-- On row and column numbers below 27 the signed comparison "row + 0 ≥ column" is the comparison of the numbers. -/
theorem sge_small : ∀ r c : Fin 27,
    IntOp.cmpi .sge (IntOp.addi (BitVec.ofNat 32 r.val) 0#32) (BitVec.ofNat 32 c.val) = if c.val ≤ r.val then 1#1 else 0#1 := by
  decide

/-- The mask at `(r, c)` is one exactly when `r < c`. -/
theorem mask_apply (r c : Fin 27) : RefTerm.mask (ix2 r c) = if r.val < c.val then 1#1 else 0#1 := by
  show Ideal.cmp .une (Scalar.select (IntOp.cmpi .sge (IntOp.addi (BitVec.ofNat 32 r.val) 0#32) (BitVec.ofNat 32 c.val))
      (Ideal.ofBits .f32 0x00000000#32) (Ideal.ofBits .f32 0x3F800000#32)) (Ideal.ofBits .f32 0x00000000#32) = _
  rw [sge_small, Ideal.ofBits_zero_f32, one_f32]
  by_cases h : r.val < c.val
  · rw [if_pos h, if_neg (by omega)]
    simp [Scalar.select, Ideal.cmp]
  · rw [if_neg h, if_pos (by omega)]
    simp [Scalar.select, Ideal.cmp]

/-- The flattened mask at position `q` is the word of `tri q`. -/
theorem maskWords_apply (q : Fin 729) : RefTerm.maskWords (ix1 q) = BitVec.ofNat 32 (tri q.val) := by
  unfold RefTerm.maskWords
  rw [extui_apply]
  have hr : q.val / 27 < 27 := by have := q.isLt; omega
  have hc : q.val % 27 < 27 := Nat.mod_lt _ (by norm_num)
  rw [shapeCast_apply RefTerm.mask _ (ix1 q) (ix2 (⟨q.val / 27, hr⟩ : Fin 27) (⟨q.val % 27, hc⟩ : Fin 27)) (by
    rw [Shape.rowMajor_val_two, Shape.rowMajor_val_one]
    show q.val / 27 * 27 + q.val % 27 = q.val
    omega)]
  rw [mask_apply]
  unfold tri
  show (if q.val / 27 < q.val % 27 then 1#1 else 0#1).setWidth 32 = _
  split <;> rfl

/-- The flattened mask read at a natural number is the word of `tri` below 729. -/
theorem at0_maskWords (i : Nat) (hi : i < 729) : Cert.LibPrefixSum.at0 RefTerm.maskWords i = BitVec.ofNat 32 (tri i) := by
  unfold Cert.LibPrefixSum.at0
  rw [dif_pos hi]
  exact maskWords_apply ⟨i, hi⟩

/-- A sum of words of numbers is the word of the numbers' sum. -/
theorem sum_ofNat (f : Nat → Nat) (k : Nat) :
    ∑ i ∈ Finset.range k, BitVec.ofNat 32 (f i) = BitVec.ofNat 32 (∑ i ∈ Finset.range k, f i) := by
  induction k with
  | zero => simp
  | succ k ih => rw [Finset.sum_range_succ, Finset.sum_range_succ, ih, BitVec.ofNat_add]

/-- The count as a sum over a range. -/
theorem cnt_eq_sum (k : Nat) : cnt k = ∑ i ∈ Finset.range k, tri i := by
  induction k with
  | zero => simp [cnt]
  | succ k ih => rw [cnt_succ, Finset.sum_range_succ, ih]

/-- The running count at position `p` is the word of the number of triangle positions among `0 … p`. -/
theorem csum_apply (p : Fin 729) : RefTerm.csum (ix1 p) = BitVec.ofNat 32 (cnt (p.val + 1)) := by
  unfold RefTerm.csum
  refine (Cert.LibPrefixSum.cumsum_apply (n := 729) 728 rfl RefTerm.maskWords _ (fun _ => rfl) _ _ p).trans ?_
  rw [Finset.sum_congr rfl fun i hi => at0_maskWords i (by have := Finset.mem_range.mp hi; have := p.isLt; omega)]
  rw [sum_ofNat, ← cnt_eq_sum]

end Cert.ReferenceIdeal.TriMask

end
-- ==== Proof.LibHistogram.lean ====
/- A histogram computed as a scatter of additions.

   The host's scatter with an adding body leaves, at each place of the operand, the operand's entry plus the sum of
   the updates that land on that place: the left fold over the updates changes one place per update, and addition
   of words is associative, so the place's final value does not depend on the order.  For a rank-1 operand of
   `N` places and a column `[E, 1]` of start indices (one scalar update per index: what `x.at[idx].add(u)` lowers
   to) update `n` lands on place `k` exactly when its index word, read as a signed integer, is `k`; an index
   outside `[0, N)` is dropped.  With every update one this is the histogram of the indices. -/
import Idealize.ShloMosaic.PureOps
import Idealize.ShloMosaic.Lib.ValueIdx
import Mathlib.Algebra.BigOperators.Fin
import Mathlib.Data.BitVec

noncomputable section

open scoped BigOperators

namespace Cert.LibHistogram

open Idealize.ShloMosaic Idealize.ShloMosaic.ValueIdx

section Fold
variable {s si u : Shape} {w wi : Nat}

/-- The fold of the adding scatter step over a list of update positions, read at one place `i0`: the start
    contents there plus the updates of the list that land there. -/
theorem scatter_foldl (d : ScatterDims s si u) (idx : IVec si wi) (upd : u.Idx → BitVec w) (i0 : s.Idx)
    (L : List (Fin u.numel)) (r : s.Idx → BitVec w) :
    (L.foldl (fun r n =>
        match d.resultIdx? (u.rowMajor.symm n) idx with
        | some i => fun i' => if i' = i then IntOp.addi (r i) (upd (u.rowMajor.symm n)) else r i'
        | none => r) r) i0
      = r i0 + (L.map fun n => if d.resultIdx? (u.rowMajor.symm n) idx = some i0 then upd (u.rowMajor.symm n) else 0).sum := by
  induction L generalizing r with
  | nil => simp
  | cons n L ih =>
    rw [List.foldl_cons, ih, List.map_cons, List.sum_cons, ← BitVec.add_assoc]
    congr 1
    cases hres : d.resultIdx? (u.rowMajor.symm n) idx with
    | none => simp
    | some i =>
      by_cases hi : i0 = i
      · subst hi
        simp [IntOp.addi]
      · have hne : ¬ (some i = some i0) := fun h => hi (Option.some.inj h).symm
        simp [hi, hne]

/-- THE ADDING SCATTER AT A PLACE: the operand's entry plus the sum of the updates landing there. -/
theorem scatter_add_apply (d : ScatterDims s si u) (x : s.Idx → BitVec w) (idx : IVec si wi) (upd : u.Idx → BitVec w)
    (i0 : s.Idx) :
    Host.scatter d IntOp.addi x idx upd i0 = x i0 + ∑ j : u.Idx, if d.resultIdx? j idx = some i0 then upd j else 0 := by
  unfold Host.scatter
  refine (scatter_foldl d idx upd i0 (List.finRange u.numel) x).trans ?_
  rw [← Fin.sum_univ_def]
  congr 1
  exact Equiv.sum_comp u.rowMajor.symm fun j => if d.resultIdx? j idx = some i0 then upd j else 0

end Fold

section Column
variable {w wi : Nat}

/-- The dimension numbers: a rank-1 operand of `N` places, a column `[E, 1]` of start indices (the index vector
    along axis 1, its one component naming the operand's axis), `E` scalar updates. -/
abbrev colDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem zero_mem : (0 : Fin 1) ∈ ([0] : List (Fin 1)) := by decide

/-- Update `n`'s window starts at its index word read signed … -/
theorem start_col {N E : Nat} (wf : ScatterDims.WF ⟨1, ![N]⟩ ⟨2, ![E, 1]⟩ ⟨1, ![E]⟩ [] [0] [0] 1)
    (idx : IVec ⟨2, ![E, 1]⟩ wi) (n : Fin E) :
    (colDims N E wf).start (ix1 n) idx 0 = (idx (ix2 n (0 : Fin 1))).toInt := by
  unfold ScatterDims.start
  rw [dif_pos (show (0 : Fin 1) ∈ (colDims N E wf).scatterDimsToOperandDims from zero_mem)]
  have hsi : (colDims N E wf).siIdx (ix1 n) ⟨List.idxOf (0 : Fin 1) (colDims N E wf).scatterDimsToOperandDims,
      List.idxOf_lt_length_iff.2 zero_mem⟩ = ix2 n (0 : Fin 1) := by
    funext c; refine Fin.ext ?_
    match c with
    | ⟨0, _⟩ => rfl
    | ⟨1, _⟩ => rfl
  rw [hsi]

/-- … and has no window coordinate: the operand's one axis is an inserted one. -/
theorem window_col {N E : Nat} (wf : ScatterDims.WF ⟨1, ![N]⟩ ⟨2, ![E, 1]⟩ ⟨1, ![E]⟩ [] [0] [0] 1) (n : Fin E) :
    (colDims N E wf).window (ix1 n) 0 = 0 := by
  unfold ScatterDims.window
  rw [dif_neg]
  show (0 : Fin 1) ∉ (List.finRange 1).filter (· ∉ ([0] : List (Fin 1)))
  decide

/-- Update `n` lands on place `k` exactly when its index word, read signed, is `k`. -/
theorem resultIdx_col {N E : Nat} (wf : ScatterDims.WF ⟨1, ![N]⟩ ⟨2, ![E, 1]⟩ ⟨1, ![E]⟩ [] [0] [0] 1)
    (idx : IVec ⟨2, ![E, 1]⟩ wi) (n : Fin E) (k : Fin N) :
    (colDims N E wf).resultIdx? (ix1 n) idx = some (ix1 k) ↔ (idx (ix2 n (0 : Fin 1))).toInt = (k.val : Int) := by
  unfold ScatterDims.resultIdx?
  have hone : ∀ a : Fin 1, a = 0 := fun a => Subsingleton.elim _ _
  by_cases h : ∀ a, 0 ≤ (colDims N E wf).start (ix1 n) idx a + (colDims N E wf).window (ix1 n) a
      ∧ (colDims N E wf).start (ix1 n) idx a + (colDims N E wf).window (ix1 n) a < ((⟨1, ![N]⟩ : Shape).size a : Int)
  · rw [dif_pos h]
    have h0 := h 0
    rw [start_col, window_col] at h0
    constructor
    · intro he
      have := congrFun (Option.some.inj he) 0
      have hv := congrArg Fin.val this
      simp only [start_col, window_col] at hv
      have hv' : ((idx (ix2 n (0 : Fin 1))).toInt + ((0 : Nat) : Int)).toNat = k.val := hv
      omega
    · intro he
      refine congrArg some (funext fun a => Fin.ext ?_)
      rw [hone a]
      show ((colDims N E wf).start (ix1 n) idx 0 + ((colDims N E wf).window (ix1 n) 0 : Int)).toNat = k.val
      rw [start_col, window_col, he]
      simp
  · rw [dif_neg h]
    constructor
    · intro he; exact absurd he (by simp)
    · intro he
      exfalso
      apply h
      intro a
      rw [hone a, start_col, window_col, he]
      have := k.isLt
      constructor
      · simp
      · show ((k.val : Int) + ((0 : Nat) : Int)) < ((N : Nat) : Int)
        omega

end Column

end Cert.LibHistogram

end
-- ==== Proof.TriHist.lean ====
/-
  The reference's middle stages read at an index: the place each position's running count names, the histogram of
  those places, and the histogram's running count.

  The running count at position `p` is `cnt (p + 1)`, a number between 0 and 729, so clipping it at zero and
  reading it as an index leave it unchanged.  The histogram over the places `0 … 350` therefore holds at place `k`
  the number of positions whose running count is `k`, and its running count at `e` is the number of positions `p`
  with `cnt (p + 1) ≤ e` — the positions before the `e`-th triangle position, which are `place e` many.
-/
import proofs.«111080_j790273983046_2_alg».proof.Proof.TriMask
import proofs.«111080_j790273983046_2_alg».proof.Proof.LibHistogram

noncomputable section

open scoped BigOperators

namespace Cert.ReferenceIdeal.TriHist

open Cert.ReferenceIdeal Idealize.ShloMosaic Idealize.ShloMosaic.ValueIdx Cert.TriCount Cert.ReferenceIdeal.TriMask
open Cert.ReferenceIdeal.Facts₀

/-- A count of at most 729, clipped below at zero and wrapped as an index into 351 places, is itself. -/
theorem bin_small : ∀ c : Fin 730,
    Scalar.select (IntOp.cmpi .slt (IntOp.maxsi 0#32 (BitVec.ofNat 32 c.val)) 0#32)
      (IntOp.addi (IntOp.maxsi 0#32 (BitVec.ofNat 32 c.val)) 351#32) (IntOp.maxsi 0#32 (BitVec.ofNat 32 c.val))
      = BitVec.ofNat 32 c.val := by decide

/-- Read as a signed integer it is the number. -/
theorem toInt_small : ∀ c : Fin 730, (BitVec.ofNat 32 c.val).toInt = (c.val : Int) := by decide

/-- The place position `p` adds one to: its running count. -/
theorem binIdx_apply (p : Fin 729) : RefTerm.binIdx (ix1 p) = BitVec.ofNat 32 (cnt (p.val + 1)) := by
  show Scalar.select (IntOp.cmpi .slt (IntOp.maxsi 0#32 (RefTerm.csum (ix1 p))) 0#32)
      (IntOp.addi (IntOp.maxsi 0#32 (RefTerm.csum (ix1 p))) 351#32) (IntOp.maxsi 0#32 (RefTerm.csum (ix1 p))) = _
  rw [csum_apply]
  exact bin_small ⟨cnt (p.val + 1), by have := cnt_le (p.val + 1); have := p.isLt; omega⟩

/-- A vector of 729 words laid out as a column, read at row `n`. -/
theorem column_apply (v : IVec S729 32) (n : Fin 729) :
    broadcastInDim S729x1 ![0] bcast_S729_S729x1_0 v (ix2 n (0 : Fin 1)) = v (ix1 n) := by
  unfold broadcastInDim
  refine congrArg v (funext fun a => Fin.ext ?_)
  have ha : a = 0 := Subsingleton.elim _ _
  subst ha
  rfl

/-- The histogram at place `k`: the number of positions whose running count is `k`, as a sum of ones. -/
theorem hist_apply (k : Fin 351) :
    RefTerm.hist (ix1 k) = ∑ n : Fin 729, if cnt (n.val + 1) = k.val then (1#32 : BitVec 32) else 0 := by
  show Host.scatter (Cert.LibHistogram.colDims 351 729 scatter_S351_S729x1_S729_n_0_0_1_wf) IntOp.addi
      (RefTerm.b351 (constantI S_ 32 0#32)) (broadcastInDim S729x1 ![0] bcast_S729_S729x1_0 RefTerm.binIdx)
      (RefTerm.b729 (constantI S_ 32 1#32)) (ix1 k) = _
  rw [Cert.LibHistogram.scatter_add_apply]
  rw [show RefTerm.b351 (constantI S_ 32 0#32) (ix1 k) = (0 : BitVec 32) from rfl, zero_add]
  rw [← Equiv.sum_comp (Cert.LibPrefixSum.idxEquiv1 (n := 729)).symm]
  refine Finset.sum_congr rfl fun n _ => ?_
  show (if (Cert.LibHistogram.colDims 351 729 scatter_S351_S729x1_S729_n_0_0_1_wf).resultIdx? (ix1 n)
      (broadcastInDim S729x1 ![0] bcast_S729_S729x1_0 RefTerm.binIdx) = some (ix1 k) then (1#32 : BitVec 32) else 0) = _
  refine if_congr ?_ rfl rfl
  rw [Cert.LibHistogram.resultIdx_col, column_apply, binIdx_apply,
    toInt_small ⟨cnt (n.val + 1), by have := cnt_le (n.val + 1); have := n.isLt; omega⟩]
  exact Int.ofNat_inj

/-- `P` ones add up to the word of `P`. -/
theorem nsmul_one_word (P : Nat) : P • (1#32 : BitVec 32) = BitVec.ofNat 32 P := by
  induction P with
  | zero => rfl
  | succ P ih => rw [succ_nsmul, ih, BitVec.ofNat_add]

/-- Ones added over the positions before `P`. -/
theorem sum_before (P : Nat) (hP : P ≤ 729) :
    ∑ n : Fin 729, (if n.val < P then (1#32 : BitVec 32) else 0) = BitVec.ofNat 32 P := by
  rw [Fin.sum_univ_eq_sum_range (fun n => if n < P then (1#32 : BitVec 32) else 0) 729, Finset.sum_ite,
    Finset.sum_const_zero, add_zero]
  have hf : (Finset.range 729).filter (fun n => n < P) = Finset.range P := by
    ext n; simp only [Finset.mem_filter, Finset.mem_range]; omega
  rw [hf, Finset.sum_const, Finset.card_range]
  exact nsmul_one_word P

/-- The histogram's running count at `e` is the flat position of the `e`-th triangle position. -/
theorem flat_apply (e : Fin 351) : RefTerm.flat (ix1 e) = BitVec.ofNat 32 (place e.val) := by
  unfold RefTerm.flat
  refine (Cert.LibPrefixSum.cumsum_apply (n := 351) 350 rfl RefTerm.hist _ (fun _ => rfl) _ _ e).trans ?_
  have hat : ∀ i ∈ Finset.range (e.val + 1), Cert.LibPrefixSum.at0 RefTerm.hist i
      = ∑ n : Fin 729, if cnt (n.val + 1) = i then (1#32 : BitVec 32) else 0 := by
    intro i hi
    have hi' : i < 351 := by have := Finset.mem_range.mp hi; have := e.isLt; omega
    unfold Cert.LibPrefixSum.at0
    rw [dif_pos hi']
    exact hist_apply ⟨i, hi'⟩
  rw [Finset.sum_congr rfl hat, Finset.sum_comm]
  rw [Finset.sum_congr rfl fun n _ => Finset.sum_ite_eq (Finset.range (e.val + 1)) (cnt (n.val + 1)) fun _ => (1#32 : BitVec 32)]
  rw [Finset.sum_congr rfl fun (n : Fin 729) _ => if_congr
    (show cnt (n.val + 1) ∈ Finset.range (e.val + 1) ↔ n.val < place e.val from by
      rw [Finset.mem_range, Nat.lt_succ_iff]; exact cnt_le_iff e n.val) rfl rfl]
  exact sum_before (place e.val) (le_of_lt (place_facts e).1)

end Cert.ReferenceIdeal.TriHist

end
-- ==== Proof.lean ====
/-
  The certificate of the pairwise feature-interaction kernel.

  Every batch row has 27 feature vectors of 128 lanes (one dense, 26 sparse); the result holds, for every batch row,
  the 351 Gram entries of the pairs `i < j` of features, row by row of the strict upper triangle (`Cert.Spec.G`).
  The kernel forms the 27 × 27 Gram matrix of 512 batch rows at a time by one matrix product and lays the 26
  triangle rows side by side; its result array is `Spec.G` of the two argument arrays (`KValue.run`).  The reference
  forms the Gram matrices of all rows and gathers them at an index table it computes from constants: the table's
  row `e` is the `e`-th pair of the triangle (`TriHist.flat_apply`, `PairTable.pairs_of_flat`), so the gathered array
  is `Spec.G` as well (`RefGather.gathered_eq`).  Both sides add up the same products in the same order: no law of the
  extended reals beyond that is used, and the precondition is not needed.
-/
import proofs.«111080_j790273983046_2_alg».proof.Defs
import proofs.«111080_j790273983046_2_alg».proof.Proof.Gen.Kernel
import proofs.«111080_j790273983046_2_alg».proof.Proof.Gen.Kernel.Skeleton
import proofs.«111080_j790273983046_2_alg».proof.Proof.Gen.Kernel.Launch
import proofs.«111080_j790273983046_2_alg».proof.Proof.Gen.Kernel.Points
import proofs.«111080_j790273983046_2_alg».proof.Proof.Gen.Kernel.Frame
import proofs.«111080_j790273983046_2_alg».proof.Proof.Gen.KernelIdeal
import proofs.«111080_j790273983046_2_alg».proof.Proof.Gen.KernelIdeal.Skeleton
import proofs.«111080_j790273983046_2_alg».proof.Proof.Gen.KernelIdeal.Launch
import proofs.«111080_j790273983046_2_alg».proof.Proof.Gen.KernelIdeal.Points
import proofs.«111080_j790273983046_2_alg».proof.Proof.Gen.KernelIdeal.Frame
import proofs.«111080_j790273983046_2_alg».proof.Proof.Gen.KernelIdeal.Value
import proofs.«111080_j790273983046_2_alg».proof.Proof.Gen.ReferenceIdeal
import proofs.«111080_j790273983046_2_alg».proof.Proof.Gen.Pre_finite_inputs
import proofs.«111080_j790273983046_2_alg».proof.Proof.KernelValue
import proofs.«111080_j790273983046_2_alg».proof.Proof.RefRun
import proofs.«111080_j790273983046_2_alg».proof.Proof.RefGather
import proofs.«111080_j790273983046_2_alg».proof.Proof.PairTable
import proofs.«111080_j790273983046_2_alg».proof.Proof.TriHist
import Idealize.ShloMosaic.Adequacy
import Idealize.ShloMosaic.Init

noncomputable section

namespace Cert.Proof

open Idealize.ShloMosaic Idealize.SL.Sem

/-- The reference's result is the specification: its index table names the triangle's pairs in order. -/
theorem reference_out (x : FVec Ideal Cert.ReferenceIdeal.S65536x128 .f32) (y : FVec Ideal Cert.ReferenceIdeal.S65536x26x128 .f32) :
    Cert.ReferenceIdeal.RefTerm.out x y = Cert.Spec.G x y :=
  Cert.ReferenceIdeal.RefGather.gathered_eq Cert.ReferenceIdeal.RefTerm.pairs
    (Cert.ReferenceIdeal.PairTable.pairs_of_flat Cert.ReferenceIdeal.TriHist.flat_apply) x y

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both programs end with the specification's array of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  exact reference_out _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
